-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v89) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S100000x128 .f32) (main_arg1 : IVec S2x1600000 32) (main_arg2 : FVec F S128x128 .f32) (main_arg3 : FVec F S128 .f32) (main_arg4 : FVec F S128x64 .f32) (main_arg5 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x1 : Shape := ⟨2, ![100000, 1]⟩
abbrev S4000x128 : Shape := ⟨2, ![4000, 128]⟩
abbrev S4000x1 : Shape := ⟨2, ![4000, 1]⟩
abbrev S1700000x128 : Shape := ⟨2, ![1700000, 128]⟩
abbrev S1x128 : Shape := ⟨2, ![1, 128]⟩
abbrev S100000x64 : Shape := ⟨2, ![100000, 64]⟩
abbrev S4000x64 : Shape := ⟨2, ![4000, 64]⟩
abbrev S1700000x64 : Shape := ⟨2, ![1700000, 64]⟩
abbrev S1x64 : Shape := ⟨2, ![1, 64]⟩

abbrev nBuf : Space → Nat
  | .hbm => 64
  | .vmem => 22
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S100000x1, .f32⟩
  | .hbm, ⟨30, _⟩ => ⟨S100000x128, .bf16⟩
  | .hbm, ⟨31, _⟩ => ⟨S128x128, .bf16⟩
  | .hbm, ⟨32, _⟩ => ⟨S100000x128, .f32⟩
  | .hbm, ⟨33, _⟩ => ⟨S_, .i32⟩
  | .hbm, ⟨34, _⟩ => ⟨S1700000, .i32⟩
  | .hbm, ⟨35, _⟩ => ⟨S1700000, .i1⟩
  | .hbm, ⟨36, _⟩ => ⟨S_, .i32⟩
  | .hbm, ⟨37, _⟩ => ⟨S1700000, .i32⟩
  | .hbm, ⟨38, _⟩ => ⟨S1700000, .i32⟩
  | .hbm, ⟨39, _⟩ => ⟨S1700000, .i32⟩
  | .hbm, ⟨40, _⟩ => ⟨S1700000x1, .i32⟩
  | .hbm, ⟨41, _⟩ => ⟨S1700000x128, .f32⟩
  | .hbm, ⟨42, _⟩ => ⟨S_, .f32⟩
  | .hbm, ⟨43, _⟩ => ⟨S100000x128, .f32⟩
  | .hbm, ⟨44, _⟩ => ⟨S1700000x1, .i32⟩
  | .hbm, ⟨45, _⟩ => ⟨S100000x128, .f32⟩
  | .hbm, ⟨46, _⟩ => ⟨S1x128, .f32⟩
  | .hbm, ⟨47, _⟩ => ⟨S128x64, .bf16⟩
  | .hbm, ⟨48, _⟩ => ⟨S100000x64, .f32⟩
  | .hbm, ⟨49, _⟩ => ⟨S_, .i32⟩
  | .hbm, ⟨50, _⟩ => ⟨S1700000, .i32⟩
  | .hbm, ⟨51, _⟩ => ⟨S1700000, .i1⟩
  | .hbm, ⟨52, _⟩ => ⟨S_, .i32⟩
  | .hbm, ⟨53, _⟩ => ⟨S1700000, .i32⟩
  | .hbm, ⟨54, _⟩ => ⟨S1700000, .i32⟩
  | .hbm, ⟨55, _⟩ => ⟨S1700000, .i32⟩
  | .hbm, ⟨56, _⟩ => ⟨S1700000x1, .i32⟩
  | .hbm, ⟨57, _⟩ => ⟨S1700000x64, .f32⟩
  | .hbm, ⟨58, _⟩ => ⟨S_, .f32⟩
  | .hbm, ⟨59, _⟩ => ⟨S100000x64, .f32⟩
  | .hbm, ⟨60, _⟩ => ⟨S1700000x1, .i32⟩
  | .hbm, ⟨61, _⟩ => ⟨S100000x64, .f32⟩
  | .hbm, ⟨62, _⟩ => ⟨S1x64, .f32⟩
  | .hbm, ⟨63, _⟩ => ⟨S100000x64, .f32⟩
  | .local _ .vmem, ⟨0, _⟩ => ⟨S4000x128, .bf16⟩
  | .local _ .vmem, ⟨1, _⟩ => ⟨S4000x128, .bf16⟩
  | .local _ .vmem, ⟨2, _⟩ => ⟨S128x128, .bf16⟩
  | .local _ .vmem, ⟨3, _⟩ => ⟨S4000x1, .f32⟩
  | .local _ .vmem, ⟨4, _⟩ => ⟨S4000x1, .f32⟩
  | .local _ .vmem, ⟨5, _⟩ => ⟨S4000x128, .f32⟩
  | .local _ .vmem, ⟨6, _⟩ => ⟨S4000x128, .f32⟩
  | .local _ .vmem, ⟨7, _⟩ => ⟨S4000x128, .f32⟩
  | .local _ .vmem, ⟨8, _⟩ => ⟨S4000x128, .f32⟩
  | .local _ .vmem, ⟨9, _⟩ => ⟨S4000x1, .f32⟩
  | .local _ .vmem, ⟨10, _⟩ => ⟨S4000x1, .f32⟩
  | .local _ .vmem, ⟨11, _⟩ => ⟨S1x128, .f32⟩
  | .local _ .vmem, ⟨12, _⟩ => ⟨S128x64, .bf16⟩
  | .local _ .vmem, ⟨13, _⟩ => ⟨S4000x64, .f32⟩
  | .local _ .vmem, ⟨14, _⟩ => ⟨S4000x64, .f32⟩
  | .local _ .vmem, ⟨15, _⟩ => ⟨S4000x64, .f32⟩
  | .local _ .vmem, ⟨16, _⟩ => ⟨S4000x64, .f32⟩
  | .local _ .vmem, ⟨17, _⟩ => ⟨S4000x1, .f32⟩
  | .local _ .vmem, ⟨18, _⟩ => ⟨S4000x1, .f32⟩
  | .local _ .vmem, ⟨19, _⟩ => ⟨S1x64, .f32⟩
  | .local _ .vmem, ⟨20, _⟩ => ⟨S4000x64, .f32⟩
  | .local _ .vmem, ⟨21, _⟩ => ⟨S4000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_cst_3 : Ref sig .tc := ⟨.hbm, 25, rfl⟩
abbrev main_call0_v0 : Ref sig .tc := ⟨.hbm, 26, rfl⟩
abbrev main_call0_v1 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_c : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_5 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_c_6 : Ref sig .tc := ⟨.hbm, 49, rfl⟩
abbrev main_v33 : Ref sig .tc := ⟨.hbm, 50, rfl⟩
abbrev main_v34 : Ref sig .tc := ⟨.hbm, 51, rfl⟩
abbrev main_c_7 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_8 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg3_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem4_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem3_0 : DmaSem sig := 20
abbrev cc2_sem3_1 : DmaSem sig := 21

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x64 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S4000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S4000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  shapeCasts_S100000_S100000x1 : S100000.ShapeCasts S100000x1
  bitsLt_bf16_f32 : FTy.bits .bf16 < FTy.bits .f32
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  broadcasts_S4000x1_S4000x128 : S4000x1.Broadcasts S4000x128
  bcast_S_S100000x128 : S_.BroadcastsInDim S100000x128 (![] : Fin 0 → Fin S100000x128.rank)
  shapeCasts_S128_S1x128 : S128.ShapeCasts S1x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S4000x64_S4000x64_0_0 : ∀ a, (![0, 0] : Fin 2 → Nat) a + S4000x64.size a ≤ S4000x64.size a
  h_S4000x64 : 0 < S4000x64.numel
  bcast_S_S100000x64 : S_.BroadcastsInDim S100000x64 (![] : Fin 0 → Fin S100000x64.rank)
  shapeCasts_S64_S1x64 : S64.ShapeCasts S1x64
  shapeCasts_S4000x64_S4000x64 : S4000x64.ShapeCasts S4000x64
  broadcasts_S4000x1_S4000x64 : S4000x1.Broadcasts S4000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4000x64 : S1x64.Broadcasts S4000x64
  scatter_S100000_S1700000x1_S1700000_n_0_0_1_wf : ScatterDims.WF S100000 S1700000x1 S1700000 [] [0] [0] 1
  dot_S4000x128_S128x128_S4000x128_1_0_0_1_n_n_wf : DotDims.WF S4000x128 S128x128 S4000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S4000x128_S128x64_S4000x64_1_0_0_1_n_n_wf : DotDims.WF S4000x128 S128x64 S4000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .bf16 = 32 ∨ (Rect.block (s := S100000x128) S4000x128.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .bf16 = 32 ∨ (Rect.block (s := S128x128) S128x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x1.size a ≤ S100000x1.size a
  hwx0_2 : ∀ i : grid0.Coords, EltTy.bits .f32 = 32 ∨ (Rect.block (s := S100000x1) S4000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4000x128.size a ≤ S100000x128.size a
  hwx0_3 : ∀ i : grid0.Coords, EltTy.bits .f32 = 32 ∨ (Rect.block (s := S100000x128) S4000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S100000x128.size a
  hwx1_0 : ∀ i : grid1.Coords, EltTy.bits .f32 = 32 ∨ (Rect.block (s := S100000x128) S4000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x1.size a ≤ S100000x1.size a
  hwx1_1 : ∀ i : grid1.Coords, EltTy.bits .f32 = 32 ∨ (Rect.block (s := S100000x1) S4000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x64.size a ≤ S128x64.size a
  hwx1_3 : ∀ i : grid1.Coords, EltTy.bits .bf16 = 32 ∨ (Rect.block (s := S128x64) S128x64.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S4000x64.size a ≤ S100000x64.size a
  hwx1_4 : ∀ i : grid1.Coords, EltTy.bits .f32 = 32 ∨ (Rect.block (s := S100000x64) S4000x64.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x64.size a ≤ S100000x64.size a
  hwx2_0 : ∀ i : grid2.Coords, EltTy.bits .f32 = 32 ∨ (Rect.block (s := S100000x64) S4000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4000x1.size a ≤ S100000x1.size a
  hwx2_1 : ∀ i : grid2.Coords, EltTy.bits .f32 = 32 ∨ (Rect.block (s := S100000x1) S4000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S4000x64.size a ≤ S100000x64.size a
  hwx2_3 : ∀ i : grid2.Coords, EltTy.bits .f32 = 32 ∨ (Rect.block (s := S100000x64) S4000x64.size (cc2_transform_3 i) (hinb2_3 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S4000x128_S128x64_S4000x64_1_0_0_1_n_n : DotDims S4000x128 S128x64 S4000x64 where
  lhsContracting := [1]
  rhsContracting := [0]
  lhsNonContracting := [0]
  rhsNonContracting := [1]
  lhsBatch := []
  rhsBatch := []
  wf := dot_S4000x128_S128x64_S4000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

abbrev win0_0 : Pipeline.Window sig grid0 :=
  Pipeline.Window.ofSpec (Memref.whole main_v17) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v16) S4000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v19) S4000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v29) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v16) S4000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v30) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v31) S128x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v32) S4000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v42) S4000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v16) S4000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v43) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v44) S4000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x64 : Shape := ⟨2, ![100000, 64]⟩
abbrev S1700000x64 : Shape := ⟨2, ![1700000, 64]⟩
abbrev S1x64 : Shape := ⟨2, ![1, 64]⟩

abbrev nBuf : Space → Nat
  | .hbm => 126
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S100000x128, .f32⟩
  | .hbm, ⟨14, _⟩ => ⟨S_, .f32⟩
  | .hbm, ⟨15, _⟩ => ⟨S1700000, .f32⟩
  | .hbm, ⟨16, _⟩ => ⟨S_, .f32⟩
  | .hbm, ⟨17, _⟩ => ⟨S100000, .f32⟩
  | .hbm, ⟨18, _⟩ => ⟨S1700000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .i1⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S_, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S_, .i32⟩
  | .hbm, ⟨31, _⟩ => ⟨S1700000, .i32⟩
  | .hbm, ⟨32, _⟩ => ⟨S1700000, .i1⟩
  | .hbm, ⟨33, _⟩ => ⟨S_, .i32⟩
  | .hbm, ⟨34, _⟩ => ⟨S1700000, .i32⟩
  | .hbm, ⟨35, _⟩ => ⟨S1700000, .i32⟩
  | .hbm, ⟨36, _⟩ => ⟨S1700000, .i32⟩
  | .hbm, ⟨37, _⟩ => ⟨S1700000x1, .i32⟩
  | .hbm, ⟨38, _⟩ => ⟨S1700000, .f32⟩
  | .hbm, ⟨39, _⟩ => ⟨S_, .i32⟩
  | .hbm, ⟨40, _⟩ => ⟨S1700000, .i32⟩
  | .hbm, ⟨41, _⟩ => ⟨S1700000, .i1⟩
  | .hbm, ⟨42, _⟩ => ⟨S_, .i32⟩
  | .hbm, ⟨43, _⟩ => ⟨S1700000, .i32⟩
  | .hbm, ⟨44, _⟩ => ⟨S1700000, .i32⟩
  | .hbm, ⟨45, _⟩ => ⟨S1700000, .i32⟩
  | .hbm, ⟨46, _⟩ => ⟨S1700000x1, .i32⟩
  | .hbm, ⟨47, _⟩ => ⟨S1700000, .f32⟩
  | .hbm, ⟨48, _⟩ => ⟨S1700000, .f32⟩
  | .hbm, ⟨49, _⟩ => ⟨S1700000x1, .f32⟩
  | .hbm, ⟨50, _⟩ => ⟨S_, .i32⟩
  | .hbm, ⟨51, _⟩ => ⟨S1700000, .i32⟩
  | .hbm, ⟨52, _⟩ => ⟨S1700000, .i1⟩
  | .hbm, ⟨53, _⟩ => ⟨S_, .i32⟩
  | .hbm, ⟨54, _⟩ => ⟨S1700000, .i32⟩
  | .hbm, ⟨55, _⟩ => ⟨S1700000, .i32⟩
  | .hbm, ⟨56, _⟩ => ⟨S1700000, .i32⟩
  | .hbm, ⟨57, _⟩ => ⟨S1700000x1, .i32⟩
  | .hbm, ⟨58, _⟩ => ⟨S1700000x128, .f32⟩
  | .hbm, ⟨59, _⟩ => ⟨S1700000x128, .f32⟩
  | .hbm, ⟨60, _⟩ => ⟨S1700000x128, .f32⟩
  | .hbm, ⟨61, _⟩ => ⟨S_, .f32⟩
  | .hbm, ⟨62, _⟩ => ⟨S100000x128, .f32⟩
  | .hbm, ⟨63, _⟩ => ⟨S1700000x1, .i32⟩
  | .hbm, ⟨64, _⟩ => ⟨S100000x128, .f32⟩
  | .hbm, ⟨65, _⟩ => ⟨S1x128, .f32⟩
  | .hbm, ⟨66, _⟩ => ⟨S100000x128, .f32⟩
  | .hbm, ⟨67, _⟩ => ⟨S100000x128, .f32⟩
  | .hbm, ⟨68, _⟩ => ⟨S_, .f32⟩
  | .hbm, ⟨69, _⟩ => ⟨S100000x128, .f32⟩
  | .hbm, ⟨70, _⟩ => ⟨S100000x128, .f32⟩
  | .hbm, ⟨71, _⟩ => ⟨S100000x64, .f32⟩
  | .hbm, ⟨72, _⟩ => ⟨S_, .f32⟩
  | .hbm, ⟨73, _⟩ => ⟨S1700000, .f32⟩
  | .hbm, ⟨74, _⟩ => ⟨S_, .f32⟩
  | .hbm, ⟨75, _⟩ => ⟨S100000, .f32⟩
  | .hbm, ⟨76, _⟩ => ⟨S1700000x1, .i32⟩
  | .hbm, ⟨77, _⟩ => ⟨S100000, .f32⟩
  | .hbm, ⟨78, _⟩ => ⟨S_, .f32⟩
  | .hbm, ⟨79, _⟩ => ⟨S100000, .f32⟩
  | .hbm, ⟨80, _⟩ => ⟨S100000, .i1⟩
  | .hbm, ⟨81, _⟩ => ⟨S_, .f32⟩
  | .hbm, ⟨82, _⟩ => ⟨S100000, .f32⟩
  | .hbm, ⟨83, _⟩ => ⟨S100000, .f32⟩
  | .hbm, ⟨84, _⟩ => ⟨S_, .f32⟩
  | .hbm, ⟨85, _⟩ => ⟨S_, .f32⟩
  | .hbm, ⟨86, _⟩ => ⟨S100000, .f32⟩
  | .hbm, ⟨87, _⟩ => ⟨S100000, .f32⟩
  | .hbm, ⟨88, _⟩ => ⟨S_, .i32⟩
  | .hbm, ⟨89, _⟩ => ⟨S1700000, .i32⟩
  | .hbm, ⟨90, _⟩ => ⟨S1700000, .i1⟩
  | .hbm, ⟨91, _⟩ => ⟨S_, .i32⟩
  | .hbm, ⟨92, _⟩ => ⟨S1700000, .i32⟩
  | .hbm, ⟨93, _⟩ => ⟨S1700000, .i32⟩
  | .hbm, ⟨94, _⟩ => ⟨S1700000, .i32⟩
  | .hbm, ⟨95, _⟩ => ⟨S1700000x1, .i32⟩
  | .hbm, ⟨96, _⟩ => ⟨S1700000, .f32⟩
  | .hbm, ⟨97, _⟩ => ⟨S_, .i32⟩
  | .hbm, ⟨98, _⟩ => ⟨S1700000, .i32⟩
  | .hbm, ⟨99, _⟩ => ⟨S1700000, .i1⟩
  | .hbm, ⟨100, _⟩ => ⟨S_, .i32⟩
  | .hbm, ⟨101, _⟩ => ⟨S1700000, .i32⟩
  | .hbm, ⟨102, _⟩ => ⟨S1700000, .i32⟩
  | .hbm, ⟨103, _⟩ => ⟨S1700000, .i32⟩
  | .hbm, ⟨104, _⟩ => ⟨S1700000x1, .i32⟩
  | .hbm, ⟨105, _⟩ => ⟨S1700000, .f32⟩
  | .hbm, ⟨106, _⟩ => ⟨S1700000, .f32⟩
  | .hbm, ⟨107, _⟩ => ⟨S1700000x1, .f32⟩
  | .hbm, ⟨108, _⟩ => ⟨S_, .i32⟩
  | .hbm, ⟨109, _⟩ => ⟨S1700000, .i32⟩
  | .hbm, ⟨110, _⟩ => ⟨S1700000, .i1⟩
  | .hbm, ⟨111, _⟩ => ⟨S_, .i32⟩
  | .hbm, ⟨112, _⟩ => ⟨S1700000, .i32⟩
  | .hbm, ⟨113, _⟩ => ⟨S1700000, .i32⟩
  | .hbm, ⟨114, _⟩ => ⟨S1700000, .i32⟩
  | .hbm, ⟨115, _⟩ => ⟨S1700000x1, .i32⟩
  | .hbm, ⟨116, _⟩ => ⟨S1700000x64, .f32⟩
  | .hbm, ⟨117, _⟩ => ⟨S1700000x64, .f32⟩
  | .hbm, ⟨118, _⟩ => ⟨S1700000x64, .f32⟩
  | .hbm, ⟨119, _⟩ => ⟨S_, .f32⟩
  | .hbm, ⟨120, _⟩ => ⟨S100000x64, .f32⟩
  | .hbm, ⟨121, _⟩ => ⟨S1700000x1, .i32⟩
  | .hbm, ⟨122, _⟩ => ⟨S100000x64, .f32⟩
  | .hbm, ⟨123, _⟩ => ⟨S1x64, .f32⟩
  | .hbm, ⟨124, _⟩ => ⟨S100000x64, .f32⟩
  | .hbm, ⟨125, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v16 : Ref sig .tc := ⟨.hbm, 29, rfl⟩
abbrev main_c : Ref sig .tc := ⟨.hbm, 30, rfl⟩
abbrev main_v17 : Ref sig .tc := ⟨.hbm, 31, rfl⟩
abbrev main_v18 : Ref sig .tc := ⟨.hbm, 32, rfl⟩
abbrev main_c_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_c_6 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_c_8 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_9 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_call1_cst : Ref sig .tc := ⟨.hbm, 68, rfl⟩
abbrev main_call1_v0 : Ref sig .tc := ⟨.hbm, 69, rfl⟩
abbrev main_v48 : Ref sig .tc := ⟨.hbm, 70, rfl⟩
abbrev main_v49 : Ref sig .tc := ⟨.hbm, 71, rfl⟩
abbrev main_cst_10 : Ref sig .tc := ⟨.hbm, 72, rfl⟩
abbrev main_v50 : Ref sig .tc := ⟨.hbm, 73, rfl⟩
abbrev main_cst_11 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_cst_12 : Ref sig .tc := ⟨.hbm, 78, rfl⟩
abbrev main_v54 : Ref sig .tc := ⟨.hbm, 79, rfl⟩
abbrev main_v55 : Ref sig .tc := ⟨.hbm, 80, rfl⟩
abbrev main_cst_13 : Ref sig .tc := ⟨.hbm, 81, rfl⟩
abbrev main_v56 : Ref sig .tc := ⟨.hbm, 82, rfl⟩
abbrev main_v57 : Ref sig .tc := ⟨.hbm, 83, rfl⟩
abbrev main_cst_14 : Ref sig .tc := ⟨.hbm, 84, rfl⟩
abbrev main_call2_v0 : Ref sig .tc := ⟨.hbm, 85, rfl⟩
abbrev main_call2_v1 : Ref sig .tc := ⟨.hbm, 86, rfl⟩
abbrev main_v58 : Ref sig .tc := ⟨.hbm, 87, rfl⟩
abbrev main_c_15 : Ref sig .tc := ⟨.hbm, 88, rfl⟩
abbrev main_v59 : Ref sig .tc := ⟨.hbm, 89, rfl⟩
abbrev main_v60 : Ref sig .tc := ⟨.hbm, 90, rfl⟩
abbrev main_c_16 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_c_17 : Ref sig .tc := ⟨.hbm, 97, rfl⟩
abbrev main_v66 : Ref sig .tc := ⟨.hbm, 98, rfl⟩
abbrev main_v67 : Ref sig .tc := ⟨.hbm, 99, rfl⟩
abbrev main_c_18 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_c_19 : Ref sig .tc := ⟨.hbm, 108, rfl⟩
abbrev main_v75 : Ref sig .tc := ⟨.hbm, 109, rfl⟩
abbrev main_v76 : Ref sig .tc := ⟨.hbm, 110, rfl⟩
abbrev main_c_20 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_cst_21 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  dot_S100000x128_S128x128_S100000x128_1_0_0_1_n_n_wf : DotDims.WF S100000x128 S128x128 S100000x128 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

class Facts : Prop extends Facts₀ where

variable [Facts]
-- ==== Proof.KRun.lean ====
/-
  The idealized kernel's run with its result named.

  @main is eight segments: three stretches of host operations, the first pipelined call, a stretch, the second call, a
  stretch, the third call. The generated frame follows the contents of every buffer of the TensorCore through these
  segments (`W0 … W8`): a stretch applies its operations to the contents it finds, a call leaves its arrays at what the
  pipeline's write-backs fold to and every other buffer as it found it. The run ends with every unscoped buffer at `W8`.
  The frame keeps only the six argument buffers of that; here the result buffer is kept as well: every weakly fair execution
  terminates, nothing faulting, with the result at `W8`'s contents of it and the arguments as launched.
-/
import proofs.«145440_j34239479284114_2_alg».proof.Proof.Gen.KernelIdeal.Frame

set_option maxRecDepth 16384

noncomputable section

namespace Cert.KernelIdeal.KRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last boundary's
    contents of it and the six argument buffers as launched. -/
theorem run_named : θ_run defs (onTc (τ := τ) (main (F := F))) ⟨m, fun _ => 0, ρ⟩ (fun r => ∀ c : Dev nD,
      r.2.mem ((c.tc : Thread nD τ).loc main_v44) = W8 m ρ c (Proc.devRef .tc main_v44)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v44 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c)⟩)

end Cert.KernelIdeal.KRun

end
-- ==== Proof.LibRowGatherScatter.lean ====
/-
  Row gather and row scatter-add read at coordinates.

  What `x[idx]` on the rows of a matrix `x : [N, C]` at an integer column `idx : [E, 1]` lowers to is a
  `stablehlo.gather` with offset_dims `[1]`, collapsed_slice_dims `[0]`, start_index_map `[0]`, index_vector_dim 1 and
  slice_sizes `[1, C]`: result row `e` is the operand's row at the start index `idx[e, 0]` read as a signed integer
  and CLAMPED into `[0, N − 1]` (`pickRow`, `gather_rows_apply`; for a flat operand `x : [N]`, `gather_vec_apply`).
  What a segment sum of the rows of `upd : [E, C]` into `x : [N, C]` lowers to is a `stablehlo.scatter` with an `add`
  body, update_window_dims `[1]`, inserted_window_dims `[0]`, scatter_dims_to_operand_dims `[0]` and
  index_vector_dim 1: the start index is read signed and NOT clamped, so update row `e` lands on operand row `v`
  exactly when `idx[e, 0]` IS `v` as an integer (`lands`), and is dropped when it names no row. At the ideal instance
  element `(v, c)` of the result is the operand's plus the sum of `upd[e, c]` over the rows `e` that land on `v`
  (`scatterAdd_rows_apply`). A row that lands on `v` is a row the gather reads at `v` (`pickRow_of_lands`).
  All statements are generic in the sizes; the dimension numbers are literal records over any proof of their
  conditions, so a program's printed record is an instance by unfolding its name.
-/
import Idealize.ShloMosaic.Lib.ValueIdx

noncomputable section

open scoped BigOperators

namespace Idealize.ShloMosaic.RowOps

open Idealize.ShloMosaic Idealize.ShloMosaic.ValueIdx

/-! ## The row a start index names -/

/-- The operand row a gather reads for result row `e`: the start index `idx[e, 0]` read as a signed integer and
    clamped into `[0, N − 1]` (a negative index reads row 0, one past the end row `N − 1`). -/
def pickRow {N E w : Nat} (hN : 0 < N) (idx : IVec ⟨2, ![E, 1]⟩ w) (e : Fin E) : Fin N :=
  ⟨min (idx (ix2 e (0 : Fin 1))).toInt.toNat (N - 1), by omega⟩

/-- Update row `e` lands on operand row `v`: the start index `idx[e, 0]`, read as a signed integer and not
    clamped, is `v`. -/
def lands {N E w : Nat} (idx : IVec ⟨2, ![E, 1]⟩ w) (e : Fin E) (v : Fin N) : Prop :=
  (idx (ix2 e (0 : Fin 1))).toInt = (v.val : Int)

instance {N E w : Nat} (idx : IVec ⟨2, ![E, 1]⟩ w) (e : Fin E) (v : Fin N) : Decidable (lands idx e v) :=
  inferInstanceAs (Decidable ((idx (ix2 e (0 : Fin 1))).toInt = (v.val : Int)))

/-- A row that lands on `v` is read at `v`: an index that is a row needs no clamping. -/
theorem pickRow_of_lands {N E w : Nat} (hN : 0 < N) (idx : IVec ⟨2, ![E, 1]⟩ w) (e : Fin E) (v : Fin N)
    (h : lands idx e v) : pickRow hN idx e = v := by
  refine Fin.ext ?_
  unfold lands at h
  show min (idx (ix2 e (0 : Fin 1))).toInt.toNat (N - 1) = v.val
  have hv := v.isLt
  rw [h]
  simp only [Int.toNat_natCast]
  omega

/-- The same for a second index array that agrees with the first at row `e`. -/
theorem pickRow_of_lands_of_eq {N E w : Nat} (hN : 0 < N) (idx idx' : IVec ⟨2, ![E, 1]⟩ w) (e : Fin E) (v : Fin N)
    (h : lands idx e v) (h' : idx' (ix2 e (0 : Fin 1)) = idx (ix2 e (0 : Fin 1))) : pickRow hN idx' e = v := by
  have : lands idx' e v := by unfold lands; rw [h']; exact h
  exact pickRow_of_lands hN idx' e v this

/-! ## `stablehlo.gather` of the rows of a rank-2 operand at a column of start indices, read at an index -/

section Gather
variable {α : Type}

/-- The dimension numbers of `x[idx]` on rows, for an operand `[N, C]`, start indices `[E, 1]` and result
    `[E, C]`; their conditions `wf` are decided on a program's literal shapes. -/
abbrev gatherRowsDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(e, c)`: the operand at row `pickRow idx e`, column `c`. -/
theorem gather_rows_apply {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (c : Fin C) :
    Host.gather (gatherRowsDims N E C wf) x idx (ix2 e c) = x (ix2 (pickRow hN idx e) c) := by
  unfold Host.gather
  congr 1
  funext a
  refine Fin.ext ?_
  match a with
  | ⟨0, _⟩ =>
    show (gatherRowsDims N E C wf).start (ix2 e c) idx 0 + (gatherRowsDims N E C wf).batchCoord (ix2 e c) 0
      + (gatherRowsDims N E C wf).offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (gatherRowsDims N E C wf).startIndexMap from List.mem_singleton.mpr rfl)]
    have hsi : (gatherRowsDims N E C wf).siIdx (ix2 e c) ⟨List.idxOf (0 : Fin 2) (gatherRowsDims N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (gatherRowsDims N E C wf).start (ix2 e c) idx 1 + (gatherRowsDims N E C wf).batchCoord (ix2 e c) 1
      + (gatherRowsDims N E C wf).offCoord (ix2 e c) 1 = _
    rw [GatherDims.batchCoord_eq_zero _ _ _ List.not_mem_nil]
    have hst : (gatherRowsDims N E C wf).start (ix2 e c) idx 1 = 0 := by
      unfold GatherDims.start
      rw [dif_neg (fun h => absurd (List.mem_singleton.mp h) (show ¬((1 : Fin 2) = 0) by decide))]
    rw [hst]
    simp only [Nat.add_zero, Nat.zero_add]
    rfl

/-- The dimension numbers of `x[idx]` on a flat operand `[N]` at a column of start indices `[E, 1]`, result `[E]`;
    their conditions `wf` are decided on a program's literal shapes. -/
abbrev gatherVecDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- THE FLAT GATHER READ AT `e`: the operand at `pickRow idx e`. -/
theorem gather_vec_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (gatherVecDims N E wf) x idx (ix1 e) = x (ix1 (pickRow hN idx e)) := by
  unfold Host.gather
  congr 1
  funext a
  obtain rfl : a = 0 := Subsingleton.elim _ _
  refine Fin.ext ?_
  show (gatherVecDims N E wf).start (ix1 e) idx 0 + (gatherVecDims N E wf).batchCoord (ix1 e) 0
    + (gatherVecDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (gatherVecDims N E wf).startIndexMap from List.mem_singleton.mpr rfl)]
  have hsi : (gatherVecDims N E wf).siIdx (ix1 e) ⟨List.idxOf (0 : Fin 1) (gatherVecDims N E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

end Gather

/-! ## `stablehlo.scatter` with an `add` body of the rows of the updates into a rank-2 operand, read at an index -/

section Scatter

/-- The dimension numbers of a row segment sum, for an operand `[N, C]`, scatter indices `[E, 1]` and updates
    `[E, C]`; their conditions `wf` are decided on a program's literal shapes. -/
abbrev scatterRowsDims (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

variable {N E C w : Nat} (wf : ScatterDims.WF ⟨2, ![N, C]⟩ ⟨2, ![E, 1]⟩ ⟨2, ![E, C]⟩ [1] [0] [0] 1)

/-- On the row axis the window of update `(e, c')` starts at `idx[e, 0]`, read signed … -/
theorem scatterRows_start_row (idx : IVec ⟨2, ![E, 1]⟩ w) (e : Fin E) (c' : Fin C) :
    (scatterRowsDims N E C wf).start (ix2 e c') idx 0 = (idx (ix2 e (0 : Fin 1))).toInt := by
  unfold ScatterDims.start
  rw [dif_pos (show (0 : Fin 2) ∈ (scatterRowsDims N E C wf).scatterDimsToOperandDims from List.mem_singleton.mpr rfl)]
  have hsi : (scatterRowsDims N E C wf).siIdx (ix2 e c') ⟨List.idxOf (0 : Fin 2) (scatterRowsDims N E C wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- … and on the column axis at 0. -/
theorem scatterRows_start_col (idx : IVec ⟨2, ![E, 1]⟩ w) (e : Fin E) (c' : Fin C) :
    (scatterRowsDims N E C wf).start (ix2 e c') idx 1 = 0 := by
  unfold ScatterDims.start
  rw [dif_neg (fun h => absurd (List.mem_singleton.mp h) (show ¬((1 : Fin 2) = 0) by decide))]

/-- The row axis is inserted: the window coordinate on it is 0 … -/
theorem scatterRows_window_row (e : Fin E) (c' : Fin C) : (scatterRowsDims N E C wf).window (ix2 e c') 0 = 0 := by
  unfold ScatterDims.window
  rw [dif_neg (by simp [ScatterDims.sKept, Shape.kept])]

/-- … and on the column axis it is the update's column. -/
theorem scatterRows_window_col (e : Fin E) (c' : Fin C) : (scatterRowsDims N E C wf).window (ix2 e c') 1 = c'.val := by
  rfl

/-- WHERE AN UPDATE LANDS: update `(e, c')` lands on operand element `(v, c)` exactly when row `e` lands on row
    `v` and the columns agree. An update whose start index names no row has no result index. -/
theorem resultIdx?_rows (idx : IVec ⟨2, ![E, 1]⟩ w) (e : Fin E) (c' : Fin C) (v : Fin N) (c : Fin C) :
    (scatterRowsDims N E C wf).resultIdx? (ix2 e c') idx = some (ix2 v c) ↔ lands idx e v ∧ c' = c := by
  have h0 := scatterRows_start_row wf idx e c'
  have h1 := scatterRows_start_col wf idx e c'
  have w0 := scatterRows_window_row wf e c'
  have w1 := scatterRows_window_col wf e c'
  have hv := v.isLt
  have hc' := c'.isLt
  unfold lands
  unfold ScatterDims.resultIdx?
  split
  · rename_i h
    rw [Option.some.injEq]
    constructor
    · intro hf
      have e0 := congrArg (fun f => (f 0).val) hf
      have e1 := congrArg (fun f => (f 1).val) hf
      simp only [h0, h1, w0, w1] at e0 e1
      have p0 := (h 0).1
      rw [h0, w0] at p0
      refine ⟨?_, Fin.ext ?_⟩
      · change ((idx (ix2 e (0 : Fin 1))).toInt + ((0 : Nat) : Int)).toNat = v.val at e0
        omega
      · change ((0 : Int) + (c'.val : Int)).toNat = c.val at e1
        omega
    · rintro ⟨hl, rfl⟩
      funext a; refine Fin.ext ?_
      match a with
      | ⟨0, _⟩ =>
        show ((scatterRowsDims N E C wf).start (ix2 e c') idx 0 + ((scatterRowsDims N E C wf).window (ix2 e c') 0 : Nat)).toNat = v.val
        rw [h0, w0, hl]; simp
      | ⟨1, _⟩ =>
        show ((scatterRowsDims N E C wf).start (ix2 e c') idx 1 + ((scatterRowsDims N E C wf).window (ix2 e c') 1 : Nat)).toNat = c'.val
        rw [h1, w1]; simp
  · rename_i h
    constructor
    · intro hf; exact absurd hf (by simp)
    · rintro ⟨hl, rfl⟩
      exfalso; apply h
      intro a
      match a with
      | ⟨0, _⟩ =>
        show 0 ≤ (scatterRowsDims N E C wf).start (ix2 e c') idx 0 + ((scatterRowsDims N E C wf).window (ix2 e c') 0 : Nat) ∧
          (scatterRowsDims N E C wf).start (ix2 e c') idx 0 + ((scatterRowsDims N E C wf).window (ix2 e c') 0 : Nat) < (N : Int)
        rw [h0, w0, hl]; constructor <;> omega
      | ⟨1, _⟩ =>
        show 0 ≤ (scatterRowsDims N E C wf).start (ix2 e c') idx 1 + ((scatterRowsDims N E C wf).window (ix2 e c') 1 : Nat) ∧
          (scatterRowsDims N E C wf).start (ix2 e c') idx 1 + ((scatterRowsDims N E C wf).window (ix2 e c') 1 : Nat) < (C : Int)
        rw [h1, w1]; constructor <;> omega

/-- THE ROW SCATTER-ADD READ AT `(v, c)`, at the ideal instance: the operand's element plus the sum of column `c` of
    the update rows that land on row `v`. Rows whose start index names no operand row contribute nothing. -/
theorem scatterAdd_rows_apply {φ : FTy} (x : FVec Ideal ⟨2, ![N, C]⟩ φ) (idx : IVec ⟨2, ![E, 1]⟩ w)
    (upd : FVec Ideal ⟨2, ![E, C]⟩ φ) (v : Fin N) (c : Fin C) :
    Host.scatterAdd (F := Ideal) (scatterRowsDims N E C wf) x idx upd (ix2 v c) =
      x (ix2 v c) + ∑ e ∈ Finset.univ.filter (fun e : Fin E => lands idx e v), upd (ix2 e c) := by
  show Ideal.hostScatterAdd (scatterRowsDims N E C wf) x idx upd (ix2 v c) = _
  unfold Ideal.hostScatterAdd
  congr 1
  symm
  refine Finset.sum_nbij' (fun e : Fin E => (ix2 e c : (⟨2, ![E, C]⟩ : Shape).Idx))
    (fun j : (⟨2, ![E, C]⟩ : Shape).Idx => (j 0 : Fin E)) ?_ ?_ ?_ ?_ ?_
  · intro e he
    have he' := (Finset.mem_filter.mp he).2
    exact Finset.mem_filter.mpr ⟨Finset.mem_univ _, (resultIdx?_rows wf idx e c v c).mpr ⟨he', rfl⟩⟩
  · intro j hj
    obtain ⟨a, b, rfl⟩ : ∃ a b, j = ix2 a b := ⟨j 0, j 1, eq_ix2 j⟩
    have hj' := (Finset.mem_filter.mp hj).2
    exact Finset.mem_filter.mpr ⟨Finset.mem_univ _, ((resultIdx?_rows wf idx a b v c).mp hj').1⟩
  · intro e _; rfl
  · intro j hj
    obtain ⟨a, b, rfl⟩ : ∃ a b, j = ix2 a b := ⟨j 0, j 1, eq_ix2 j⟩
    have hj' := (Finset.mem_filter.mp hj).2
    obtain rfl : b = c := ((resultIdx?_rows wf idx a b v c).mp hj').2
    rfl
  · intro e _; rfl

end Scatter

/-! ## The same scatter into a flat operand: one update element per scatter index -/

section ScatterVec

/-- The dimension numbers of a segment sum of a flat `upd : [E]` into `x : [N]` at scatter indices `[E, 1]`: no
    window axes; their conditions `wf` are decided on a program's literal shapes. -/
abbrev scatterVecDims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

variable {N E w : Nat} (wf : ScatterDims.WF ⟨1, ![N]⟩ ⟨2, ![E, 1]⟩ ⟨1, ![E]⟩ [] [0] [0] 1)

/-- The window of update `e` starts at `idx[e, 0]`, read signed … -/
theorem scatterVec_start (idx : IVec ⟨2, ![E, 1]⟩ w) (e : Fin E) :
    (scatterVecDims N E wf).start (ix1 e) idx 0 = (idx (ix2 e (0 : Fin 1))).toInt := by
  unfold ScatterDims.start
  rw [dif_pos (show (0 : Fin 1) ∈ (scatterVecDims N E wf).scatterDimsToOperandDims from List.mem_singleton.mpr rfl)]
  have hsi : (scatterVecDims N E wf).siIdx (ix1 e) ⟨List.idxOf (0 : Fin 1) (scatterVecDims N E wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- … and its one axis is inserted: the window coordinate is 0. -/
theorem scatterVec_window (e : Fin E) : (scatterVecDims N E wf).window (ix1 e) 0 = 0 := by
  unfold ScatterDims.window
  rw [dif_neg (by simp [ScatterDims.sKept, Shape.kept])]

/-- WHERE AN UPDATE LANDS: update `e` lands on operand element `v` exactly when `lands idx e v`. -/
theorem resultIdx?_vec (idx : IVec ⟨2, ![E, 1]⟩ w) (e : Fin E) (v : Fin N) :
    (scatterVecDims N E wf).resultIdx? (ix1 e) idx = some (ix1 v) ↔ lands idx e v := by
  have h0 := scatterVec_start wf idx e
  have w0 := scatterVec_window wf e
  have hv := v.isLt
  unfold lands
  unfold ScatterDims.resultIdx?
  split
  · rename_i h
    rw [Option.some.injEq]
    constructor
    · intro hf
      have e0 := congrArg (fun f => (f 0).val) hf
      simp only [h0, w0] at e0
      have p0 := (h 0).1
      rw [h0, w0] at p0
      change ((idx (ix2 e (0 : Fin 1))).toInt + ((0 : Nat) : Int)).toNat = v.val at e0
      omega
    · intro hl
      funext a
      obtain rfl : a = 0 := Subsingleton.elim _ _
      refine Fin.ext ?_
      show ((scatterVecDims N E wf).start (ix1 e) idx 0 + ((scatterVecDims N E wf).window (ix1 e) 0 : Nat)).toNat = v.val
      rw [h0, w0, hl]; simp
  · rename_i h
    constructor
    · intro hf; exact absurd hf (by simp)
    · intro hl
      exfalso; apply h
      intro a
      obtain rfl : a = 0 := Subsingleton.elim _ _
      show 0 ≤ (scatterVecDims N E wf).start (ix1 e) idx 0 + ((scatterVecDims N E wf).window (ix1 e) 0 : Nat) ∧
        (scatterVecDims N E wf).start (ix1 e) idx 0 + ((scatterVecDims N E wf).window (ix1 e) 0 : Nat) < (N : Int)
      rw [h0, w0, hl]; constructor <;> omega

/-- THE FLAT SCATTER-ADD READ AT `v`, at the ideal instance: the operand's element plus the sum of the updates that
    land on `v`. -/
theorem scatterAdd_vec_apply {φ : FTy} (x : FVec Ideal ⟨1, ![N]⟩ φ) (idx : IVec ⟨2, ![E, 1]⟩ w)
    (upd : FVec Ideal ⟨1, ![E]⟩ φ) (v : Fin N) :
    Host.scatterAdd (F := Ideal) (scatterVecDims N E wf) x idx upd (ix1 v) =
      x (ix1 v) + ∑ e ∈ Finset.univ.filter (fun e : Fin E => lands idx e v), upd (ix1 e) := by
  show Ideal.hostScatterAdd (scatterVecDims N E wf) x idx upd (ix1 v) = _
  unfold Ideal.hostScatterAdd
  congr 1
  symm
  refine Finset.sum_nbij' (fun e : Fin E => (ix1 e : (⟨1, ![E]⟩ : Shape).Idx))
    (fun j : (⟨1, ![E]⟩ : Shape).Idx => (j 0 : Fin E)) ?_ ?_ ?_ ?_ ?_
  · intro e he
    have he' := (Finset.mem_filter.mp he).2
    exact Finset.mem_filter.mpr ⟨Finset.mem_univ _, (resultIdx?_vec wf idx e v).mpr he'⟩
  · intro j hj
    obtain ⟨a, rfl⟩ : ∃ a, j = ix1 a := ⟨j 0, eq_ix1 j⟩
    have hj' := (Finset.mem_filter.mp hj).2
    exact Finset.mem_filter.mpr ⟨Finset.mem_univ _, (resultIdx?_vec wf idx a v).mp hj'⟩
  · intro e _; rfl
  · intro j _
    obtain ⟨a, rfl⟩ : ∃ a, j = ix1 a := ⟨j 0, eq_ix1 j⟩
    rfl
  · intro e _; rfl

end ScatterVec

end Idealize.ShloMosaic.RowOps

end
-- ==== Proof.GcnSpec.lean ====
/-
  A two-layer graph convolution, written twice.

  The data: a normaliser `d` on the nodes, for every edge `e` the node `src e` it reads and the node `tgt e` whose
  normaliser it carries, for every node `v` the finite set `into v` of edges that arrive at it, node features `X`,
  two weight matrices and two biases. One layer of the network sends features `H` to
  `out v k = Σ_{e ∈ into v} (d (src e) · d (tgt e)) · H (src e) k + b k` (`refLayer`): every arriving edge brings its source's
  features weighted by both normalisers. The network is `X ↦ X·W1 ↦ layer ↦ max(·,0) ↦ ·W2 ↦ layer` (`refOut`).

  The second arrangement scales the features of every node by its own normaliser BEFORE the edges read them and scales the
  aggregated sum by the arriving node's normaliser AFTERWARDS, `d v · Σ_{e ∈ into v} (d r · H r k)|_{r = src e} + b k`, and moves the
  second layer's source scaling across the second weight matrix (`kerOut`). When every arriving edge carries the normaliser of
  the node it arrives at (`tgt e = v` for `e ∈ into v`) and all entries are real numbers the two arrangements agree.
  This module only states the two; the law is proved elsewhere.
-/
import Idealize.ShloMosaic.PureOps.Ideal
import proofs.«145440_j34239479284114_2_alg».proof.Proof.LibRowGatherScatter

noncomputable section

open scoped BigOperators

namespace Cert.Gcn

open Idealize.ShloMosaic Idealize.ShloMosaic.ValueIdx Idealize.ShloMosaic.RowOps

section Abstract
variable {N E : Type} {K C : ℕ}

/-- Features times a weight matrix: `(X·W) r k = Σ_j X r j · W j k`. -/
def dense (X : N → Fin K → EReal) (W : Fin K → Fin C → EReal) (r : N) (k : Fin C) : EReal :=
  ∑ j : Fin K, X r j * W j k

/-- The plain aggregation: node `v` sums, over the edges arriving at it, the features of each edge's source. -/
def agg (src : E → N) (into : N → Finset E) (H : N → Fin C → EReal) (v : N) (k : Fin C) : EReal :=
  ∑ e ∈ into v, H (src e) k

/-- One layer with the normalisers applied on the edges. -/
def refLayer (d : N → EReal) (src tgt : E → N) (into : N → Finset E) (H : N → Fin C → EReal) (b : Fin C → EReal)
    (v : N) (k : Fin C) : EReal :=
  (∑ e ∈ into v, (d (src e) * d (tgt e)) * H (src e) k) + b k

/-- The network with the normalisers applied on the edges. -/
def refOut (d : N → EReal) (src tgt : E → N) (into : N → Finset E) (X : N → Fin 128 → EReal)
    (W1 : Fin 128 → Fin 128 → EReal) (b1 : Fin 128 → EReal) (W2 : Fin 128 → Fin 64 → EReal) (b2 : Fin 64 → EReal) :
    N → Fin 64 → EReal :=
  refLayer d src tgt into (dense (fun r j => max (refLayer d src tgt into (dense X W1) b1 r j) 0) W2) b2

/-- The hidden features in the second arrangement: the first layer with the normalisers applied on the nodes, then `max(·,0)`. -/
def kerHidden (d : N → EReal) (src : E → N) (into : N → Finset E) (X : N → Fin 128 → EReal)
    (W1 : Fin 128 → Fin 128 → EReal) (b1 : Fin 128 → EReal) (r : N) (j : Fin 128) : EReal :=
  max (d r * agg src into (fun r k => d r * dense X W1 r k) r j + b1 j) 0

/-- The network with the normalisers applied on the nodes. -/
def kerOut (d : N → EReal) (src : E → N) (into : N → Finset E) (X : N → Fin 128 → EReal)
    (W1 : Fin 128 → Fin 128 → EReal) (b1 : Fin 128 → EReal) (W2 : Fin 128 → Fin 64 → EReal) (b2 : Fin 64 → EReal)
    (v : N) (k : Fin 64) : EReal :=
  d v * agg src into (fun r k => ∑ j : Fin 128, (d r * kerHidden d src into X W1 b1 r j) * W2 j k) v k + b2 k

end Abstract

/-! ## The edge data read off a column of 32-bit indices -/

/-- The node a gather reads for edge `e`: the index read signed and clamped to a node. -/
def srcOf (idx : IVec ⟨2, ![1700000, 1]⟩ 32) (e : Fin 1700000) : Fin 100000 :=
  pickRow (N := 100000) (by decide) idx e

/-- The edges a scatter-add delivers to node `v`: those whose index, read signed, is `v`. -/
def intoOf (idx : IVec ⟨2, ![1700000, 1]⟩ 32) (v : Fin 100000) : Finset (Fin 1700000) :=
  Finset.univ.filter (fun e => lands idx e v)

end Cert.Gcn

end
-- ==== Proof.KHost.lean ====
/-
  The host operations of the idealized kernel's @main, stretch by stretch.

  Five stretches of host operations stand between the launch and the three pipelined calls. Each is read here against
  ARBITRARY contents `Wv` of the buffers it finds, so that the facts can be chained through the calls:

  * the first three stretches build, from the edge list, the row indices `rowK` and column indices `colK` of the edges with
    one self-loop per node appended, the in-degree `degK` (a scatter-add of ones at the column indices), the normaliser
    `dinvK` (`deg ^ -0.5` where the degree is positive, `0` elsewhere) as a column, and the features and first weights in the
    narrow format (the identity at the ideal values);
  * the fourth and fifth each gather the rows of a node array at the row indices (a negative index wrapped by the node
    count, then clamped) and scatter-add them at the column indices (`aggr128`, `aggr64`), and reshape a bias to a row.

  Read at an entry, an aggregation is the sum over the edges delivered to the node of the gathered rows (`aggr128_apply`,
  `aggr64_apply`).
-/
import proofs.«145440_j34239479284114_2_alg».proof.Proof.Gen.KernelIdeal.Launch
import proofs.«145440_j34239479284114_2_alg».proof.Proof.GcnSpec
import Idealize.ShloMosaic.Lib.StableHlo.Run
import Idealize.ShloMosaic.Lib.ValueIdx
import Idealize.ShloMosaic.Lib.Pipeline.Value
import Idealize.ShloMosaic.PureOps.Ideal.Laws

set_option maxRecDepth 16384

noncomputable section

open scoped BigOperators

namespace Cert.KernelIdeal.KHost

open Idealize.ShloMosaic Idealize.ShloMosaic.TcCoe Idealize.ShloMosaic.ValueIdx Idealize.ShloMosaic.StableHlo
open Idealize.ShloMosaic.RowOps Idealize.SL.Sem
open Cert.KernelIdeal Cert.KernelIdeal.Gen

/-! ## The stages -/

/-- The edges' row indices: row 0 of the edge list, then one self-loop per node. -/
def rowK (a1 : (⟨S2x1600000, .i32⟩ : BufTy).Contents (Elt Ideal)) : (⟨S1700000, .i32⟩ : BufTy).Contents (Elt Ideal) :=
  concatenate S1700000 0 [⟨S1600000, shapeCast _ (extractStridedSlice S1x1600000 ![0, 0] a1 slices_S2x1600000_S1x1600000_0_0) shapeCasts_S1x1600000_S1600000⟩, ⟨S100000, iotaInDim S100000 32 0⟩] concatenates_S1600000_S100000_S1700000_d0

/-- The edges' column indices: row 1 of the edge list, then one self-loop per node. -/
def colK (a1 : (⟨S2x1600000, .i32⟩ : BufTy).Contents (Elt Ideal)) : (⟨S1700000, .i32⟩ : BufTy).Contents (Elt Ideal) :=
  concatenate S1700000 0 [⟨S1600000, shapeCast _ (extractStridedSlice S1x1600000 ![1, 0] a1 slices_S2x1600000_S1x1600000_1_0) shapeCasts_S1x1600000_S1600000⟩, ⟨S100000, iotaInDim S100000 32 0⟩] concatenates_S1600000_S100000_S1700000_d0

/-- An index vector as the column a scatter takes. -/
def rawCol (idx : (⟨S1700000, .i32⟩ : BufTy).Contents (Elt Ideal)) : (⟨S1700000x1, .i32⟩ : BufTy).Contents (Elt Ideal) :=
  broadcastInDim S1700000x1 ![0] bcast_S1700000_S1700000x1_0 idx

/-- An index vector as the column a gather takes: a negative index first has the node count added. -/
def wrapCol (idx : (⟨S1700000, .i32⟩ : BufTy).Contents (Elt Ideal)) : (⟨S1700000x1, .i32⟩ : BufTy).Contents (Elt Ideal) :=
  broadcastInDim S1700000x1 ![0] bcast_S1700000_S1700000x1_0
    (select (cmpi .slt idx (broadcastInDim S1700000 ![] bcast_S_S1700000 (constantI S_ 32 0#32)))
      (addi idx (broadcastInDim S1700000 ![] bcast_S_S1700000 (constantI S_ 32 100000#32))) idx)

/-- The in-degree: ones scatter-added at the column indices. -/
def degK (colI : (⟨S1700000, .i32⟩ : BufTy).Contents (Elt Ideal)) : (⟨S100000, .f32⟩ : BufTy).Contents (Elt Ideal) :=
  Host.scatterAdd (F := Ideal) scatter_S100000_S1700000x1_S1700000_n_0_0_1
    (broadcastInDim S100000 ![] bcast_S_S100000 (constant (F := Ideal) S_ .f32 0x00000000#32))
    (broadcastInDim S1700000x1 ![0] bcast_S1700000_S1700000x1_0 colI)
    (broadcastInDim S1700000 ![] bcast_S_S1700000 (constant (F := Ideal) S_ .f32 0x3F800000#32))

/-- Where the degree is positive … -/
def posK (colI : (⟨S1700000, .i32⟩ : BufTy).Contents (Elt Ideal)) : (⟨S100000, .i1⟩ : BufTy).Contents (Elt Ideal) :=
  cmpf .ogt (degK colI) (broadcastInDim S100000 ![] bcast_S_S100000 (constant (F := Ideal) S_ .f32 0x00000000#32))

/-- … its power `-1/2` … -/
def powK (colI : (⟨S1700000, .i32⟩ : BufTy).Contents (Elt Ideal)) : (⟨S100000, .f32⟩ : BufTy).Contents (Elt Ideal) :=
  Host.powf (F := Ideal) (degK colI) (broadcastInDim S100000 ![] bcast_S_S100000 (constant (F := Ideal) S_ .f32 0xBF000000#32))

/-- … and elsewhere zero: the normaliser. -/
def dinvK (colI : (⟨S1700000, .i32⟩ : BufTy).Contents (Elt Ideal)) : (⟨S100000, .f32⟩ : BufTy).Contents (Elt Ideal) :=
  select (posK colI) (powK colI) (broadcastInDim S100000 ![] bcast_S_S100000 (id (constant (F := Ideal) S_ .f32 0x00000000#32)))

/-- Gather the rows of a 128-wide node array at the row indices and scatter-add them at the column indices. -/
def aggr128 (rowI colI : (⟨S1700000, .i32⟩ : BufTy).Contents (Elt Ideal)) (h : (⟨S100000x128, .f32⟩ : BufTy).Contents (Elt Ideal)) :
    (⟨S100000x128, .f32⟩ : BufTy).Contents (Elt Ideal) :=
  Host.scatterAdd (F := Ideal) scatter_S100000x128_S1700000x1_S1700000x128_1_0_0_1
    (broadcastInDim S100000x128 ![] bcast_S_S100000x128 (constant (F := Ideal) S_ .f32 0x00000000#32))
    (rawCol colI)
    (Host.gather gather_S100000x128_S1700000x1_S1700000x128_1_0_n_n_0_1_1128 h (wrapCol rowI))

/-- The same for a 64-wide node array. -/
def aggr64 (rowI colI : (⟨S1700000, .i32⟩ : BufTy).Contents (Elt Ideal)) (h : (⟨S100000x64, .f32⟩ : BufTy).Contents (Elt Ideal)) :
    (⟨S100000x64, .f32⟩ : BufTy).Contents (Elt Ideal) :=
  Host.scatterAdd (F := Ideal) scatter_S100000x64_S1700000x1_S1700000x64_1_0_0_1
    (broadcastInDim S100000x64 ![] bcast_S_S100000x64 (constant (F := Ideal) S_ .f32 0x00000000#32))
    (rawCol colI)
    (Host.gather gather_S100000x64_S1700000x1_S1700000x64_1_0_n_n_0_1_164 h (wrapCol rowI))

/-! ## The stretches, at arbitrary contents -/

variable (Wv : Valuation τ sig (Elt Ideal))

theorem ops0_v3 : StableHlo.after (hostOps0 (F := Ideal)) Wv (Proc.devRef .tc main_v3) = rowK (Wv (Proc.devRef .tc main_arg1)) := by
  after_results <;> rfl
theorem ops0_v6 : StableHlo.after (hostOps0 (F := Ideal)) Wv (Proc.devRef .tc main_v6) = colK (Wv (Proc.devRef .tc main_arg1)) := by
  after_results <;> rfl
theorem ops0_v12 : StableHlo.after (hostOps0 (F := Ideal)) Wv (Proc.devRef .tc main_v12) = posK (colK (Wv (Proc.devRef .tc main_arg1))) := by
  after_results <;> rfl
theorem ops0_v14 : StableHlo.after (hostOps0 (F := Ideal)) Wv (Proc.devRef .tc main_v14) = powK (colK (Wv (Proc.devRef .tc main_arg1))) := by
  after_results <;> rfl
theorem ops0_cst3 : StableHlo.after (hostOps0 (F := Ideal)) Wv (Proc.devRef .tc main_cst_3) = constant (F := Ideal) S_ .f32 0x00000000#32 := by
  after_results <;> rfl

theorem ops01_v15 : StableHlo.after (hostOps0_1 (F := Ideal)) Wv (Proc.devRef .tc main_v15)
    = select (Wv (Proc.devRef .tc main_v12)) (Wv (Proc.devRef .tc main_v14))
        (broadcastInDim S100000 ![] bcast_S_S100000 (id (Wv (Proc.devRef .tc main_cst_3)))) := by
  after_results <;> rfl

theorem ops02_v16 : StableHlo.after (hostOps0_2 (F := Ideal)) Wv (Proc.devRef .tc main_v16)
    = shapeCast _ (Wv (Proc.devRef .tc main_v15)) shapeCasts_S100000_S100000x1 := by
  after_results <;> rfl
/-- The features in the narrow format: at the ideal values a change of format is the identity. -/
theorem ops02_v17 : (StableHlo.after (hostOps0_2 (F := Ideal)) Wv (Proc.devRef .tc main_v17) : S100000x128.Idx → EReal)
    = Wv (Proc.devRef .tc main_arg0) := by
  after_results <;> rfl
/-- The same for the first weights. -/
theorem ops02_v18 : (StableHlo.after (hostOps0_2 (F := Ideal)) Wv (Proc.devRef .tc main_v18) : S128x128.Idx → EReal)
    = Wv (Proc.devRef .tc main_arg2) := by
  after_results <;> rfl

theorem ops1_v29 : StableHlo.after (hostOps1 (F := Ideal)) Wv (Proc.devRef .tc main_v29)
    = aggr128 (Wv (Proc.devRef .tc main_v3)) (Wv (Proc.devRef .tc main_v6)) (Wv (Proc.devRef .tc main_v19)) := by
  after_results <;> rfl
theorem ops1_v30 : StableHlo.after (hostOps1 (F := Ideal)) Wv (Proc.devRef .tc main_v30)
    = shapeCast _ (Wv (Proc.devRef .tc main_arg3)) shapeCasts_S128_S1x128 := by
  after_results <;> rfl
/-- The second weights in the narrow format: the identity again. -/
theorem ops1_v31 : (StableHlo.after (hostOps1 (F := Ideal)) Wv (Proc.devRef .tc main_v31) : S128x64.Idx → EReal)
    = Wv (Proc.devRef .tc main_arg4) := by
  after_results <;> rfl

theorem ops2_v42 : StableHlo.after (hostOps2 (F := Ideal)) Wv (Proc.devRef .tc main_v42)
    = aggr64 (Wv (Proc.devRef .tc main_v3)) (Wv (Proc.devRef .tc main_v6)) (Wv (Proc.devRef .tc main_v32)) := by
  after_results <;> rfl
theorem ops2_v43 : StableHlo.after (hostOps2 (F := Ideal)) Wv (Proc.devRef .tc main_v43)
    = shapeCast _ (Wv (Proc.devRef .tc main_arg5)) shapeCasts_S64_S1x64 := by
  after_results <;> rfl

/-! ## The aggregations read at an entry -/

/-- Entry `(v, k)` of an aggregation: over the edges delivered to node `v`, the sum of the gathered rows' entries `k`. -/
theorem aggr128_apply (rowI colI : (⟨S1700000, .i32⟩ : BufTy).Contents (Elt Ideal)) (h : (⟨S100000x128, .f32⟩ : BufTy).Contents (Elt Ideal))
    (v : Fin 100000) (k : Fin 128) :
    aggr128 rowI colI h (ix2 v k) = Cert.Gcn.agg (Cert.Gcn.srcOf (wrapCol rowI)) (Cert.Gcn.intoOf (rawCol colI)) (fun r c => h (ix2 r c)) v k := by
  unfold aggr128 Cert.Gcn.agg Cert.Gcn.intoOf
  refine (scatterAdd_rows_apply (N := 100000) (E := 1700000) (C := 128) scatter_S100000x128_S1700000x1_S1700000x128_1_0_0_1.wf
    _ (rawCol colI) _ v k).trans ?_
  have hz : (broadcastInDim S100000x128 ![] bcast_S_S100000x128 (constant (F := Ideal) S_ .f32 0x00000000#32)) (ix2 v k) = 0 :=
    (broadcastInDim_apply _ bcast_S_S100000x128 _ (ix2 v k) ix0 (fun a => a.elim0)).trans Ideal.ofBits_zero_f32
  rw [hz, zero_add]
  refine Finset.sum_congr rfl fun e _ => ?_
  exact gather_rows_apply (N := 100000) (E := 1700000) (C := 128) (by decide) gather_S100000x128_S1700000x1_S1700000x128_1_0_n_n_0_1_1128.wf h (wrapCol rowI) e k

theorem aggr64_apply (rowI colI : (⟨S1700000, .i32⟩ : BufTy).Contents (Elt Ideal)) (h : (⟨S100000x64, .f32⟩ : BufTy).Contents (Elt Ideal))
    (v : Fin 100000) (k : Fin 64) :
    aggr64 rowI colI h (ix2 v k) = Cert.Gcn.agg (Cert.Gcn.srcOf (wrapCol rowI)) (Cert.Gcn.intoOf (rawCol colI)) (fun r c => h (ix2 r c)) v k := by
  unfold aggr64 Cert.Gcn.agg Cert.Gcn.intoOf
  refine (scatterAdd_rows_apply (N := 100000) (E := 1700000) (C := 64) scatter_S100000x64_S1700000x1_S1700000x64_1_0_0_1.wf
    _ (rawCol colI) _ v k).trans ?_
  have hz : (broadcastInDim S100000x64 ![] bcast_S_S100000x64 (constant (F := Ideal) S_ .f32 0x00000000#32)) (ix2 v k) = 0 :=
    (broadcastInDim_apply _ bcast_S_S100000x64 _ (ix2 v k) ix0 (fun a => a.elim0)).trans Ideal.ofBits_zero_f32
  rw [hz, zero_add]
  refine Finset.sum_congr rfl fun e _ => ?_
  exact gather_rows_apply (N := 100000) (E := 1700000) (C := 64) (by decide) gather_S100000x64_S1700000x1_S1700000x64_1_0_n_n_0_1_164.wf h (wrapCol rowI) e k

end Cert.KernelIdeal.KHost

end
-- ==== Proof.KCarry.lean ====
/-
  Buffers the host stretches leave alone.

  A stretch of host operations writes only its own results: the edge indices, the normaliser column and the arguments pass
  through the later stretches unchanged. One line per stretch and buffer that the value proof follows.
-/
import proofs.«145440_j34239479284114_2_alg».proof.Proof.Gen.KernelIdeal.Launch
import Idealize.ShloMosaic.Lib.StableHlo.Run
import Idealize.ShloMosaic.PureOps.Ideal

set_option maxRecDepth 16384

noncomputable section

namespace Cert.KernelIdeal.KCarry

open Idealize.ShloMosaic Idealize.ShloMosaic.TcCoe Idealize.ShloMosaic.StableHlo Idealize.SL.Sem
open Cert.KernelIdeal Cert.KernelIdeal.Gen

/-- No operation of the stretch writes the buffer: every operation's result buffer is another one. -/
macro "not_written" : tactic => `(tactic| (
  refine StableHlo.after_of_forall_not_mem _ _ (List.forall_iff_forall_mem.mp ?_)
  simp only [hostOps0, hostOps0_1, hostOps0_2, hostOps1, hostOps2, List.Forall, StableHlo.nullary_writes, StableHlo.unary_writes,
    StableHlo.binary_writes, StableHlo.ternary_writes, StableHlo.quaternary_writes, StableHlo.reshape_writes,
    StableHlo.binaryIndexed_writes, Finset.mem_singleton]
  repeat' apply And.intro
  all_goals exact StableHlo.devRef_ne_of_ne (by decide)))

variable (Wv : Valuation τ sig (Elt Ideal))

theorem k0_arg0 : StableHlo.after (hostOps0 (F := Ideal)) Wv (Proc.devRef .tc main_arg0) = Wv (Proc.devRef .tc main_arg0) := by not_written
theorem k0_arg2 : StableHlo.after (hostOps0 (F := Ideal)) Wv (Proc.devRef .tc main_arg2) = Wv (Proc.devRef .tc main_arg2) := by not_written
theorem k0_arg3 : StableHlo.after (hostOps0 (F := Ideal)) Wv (Proc.devRef .tc main_arg3) = Wv (Proc.devRef .tc main_arg3) := by not_written
theorem k0_arg4 : StableHlo.after (hostOps0 (F := Ideal)) Wv (Proc.devRef .tc main_arg4) = Wv (Proc.devRef .tc main_arg4) := by not_written
theorem k0_arg5 : StableHlo.after (hostOps0 (F := Ideal)) Wv (Proc.devRef .tc main_arg5) = Wv (Proc.devRef .tc main_arg5) := by not_written
theorem k01_arg0 : StableHlo.after (hostOps0_1 (F := Ideal)) Wv (Proc.devRef .tc main_arg0) = Wv (Proc.devRef .tc main_arg0) := by not_written
theorem k01_arg2 : StableHlo.after (hostOps0_1 (F := Ideal)) Wv (Proc.devRef .tc main_arg2) = Wv (Proc.devRef .tc main_arg2) := by not_written
theorem k01_arg3 : StableHlo.after (hostOps0_1 (F := Ideal)) Wv (Proc.devRef .tc main_arg3) = Wv (Proc.devRef .tc main_arg3) := by not_written
theorem k01_arg4 : StableHlo.after (hostOps0_1 (F := Ideal)) Wv (Proc.devRef .tc main_arg4) = Wv (Proc.devRef .tc main_arg4) := by not_written
theorem k01_arg5 : StableHlo.after (hostOps0_1 (F := Ideal)) Wv (Proc.devRef .tc main_arg5) = Wv (Proc.devRef .tc main_arg5) := by not_written
theorem k01_v3 : StableHlo.after (hostOps0_1 (F := Ideal)) Wv (Proc.devRef .tc main_v3) = Wv (Proc.devRef .tc main_v3) := by not_written
theorem k01_v6 : StableHlo.after (hostOps0_1 (F := Ideal)) Wv (Proc.devRef .tc main_v6) = Wv (Proc.devRef .tc main_v6) := by not_written
theorem k02_arg3 : StableHlo.after (hostOps0_2 (F := Ideal)) Wv (Proc.devRef .tc main_arg3) = Wv (Proc.devRef .tc main_arg3) := by not_written
theorem k02_arg4 : StableHlo.after (hostOps0_2 (F := Ideal)) Wv (Proc.devRef .tc main_arg4) = Wv (Proc.devRef .tc main_arg4) := by not_written
theorem k02_arg5 : StableHlo.after (hostOps0_2 (F := Ideal)) Wv (Proc.devRef .tc main_arg5) = Wv (Proc.devRef .tc main_arg5) := by not_written
theorem k02_v3 : StableHlo.after (hostOps0_2 (F := Ideal)) Wv (Proc.devRef .tc main_v3) = Wv (Proc.devRef .tc main_v3) := by not_written
theorem k02_v6 : StableHlo.after (hostOps0_2 (F := Ideal)) Wv (Proc.devRef .tc main_v6) = Wv (Proc.devRef .tc main_v6) := by not_written
theorem k1_v3 : StableHlo.after (hostOps1 (F := Ideal)) Wv (Proc.devRef .tc main_v3) = Wv (Proc.devRef .tc main_v3) := by not_written
theorem k1_v6 : StableHlo.after (hostOps1 (F := Ideal)) Wv (Proc.devRef .tc main_v6) = Wv (Proc.devRef .tc main_v6) := by not_written
theorem k1_v16 : StableHlo.after (hostOps1 (F := Ideal)) Wv (Proc.devRef .tc main_v16) = Wv (Proc.devRef .tc main_v16) := by not_written
theorem k1_arg5 : StableHlo.after (hostOps1 (F := Ideal)) Wv (Proc.devRef .tc main_arg5) = Wv (Proc.devRef .tc main_arg5) := by not_written
theorem k2_v16 : StableHlo.after (hostOps2 (F := Ideal)) Wv (Proc.devRef .tc main_v16) = Wv (Proc.devRef .tc main_v16) := by not_written

end Cert.KernelIdeal.KCarry

end
-- ==== Proof.LibPlainMatmul.lean ====
/-
  A plain matrix product on the extended reals, read at an entry.

  A `tpu.matmul` of an [m, K] operand by a [K, n] operand — axis 1 of the left contracted with axis 0 of the right, no batch
  axis — accumulated into the f32 zero splat, and the host's `dot_general` of the same form, read at (p, q), are the textbook
  entry  Σ_k l(p, k) · r(k, q).  The dimension
  record is taken in literal form (the six axis lists written out over any well-formedness witness), so a printed record of
  that form is an instance by unfolding its name.  The operands' formats are free: at the ideal values every format is the
  extended reals.
-/
import Idealize.ShloMosaic.PureOps.Ideal.Laws
import Idealize.ShloMosaic.Lib.ValueIdx

noncomputable section

namespace Cert.PlainMatmul

open Idealize.ShloMosaic Idealize.ShloMosaic.ValueIdx

/-- The literal record of a plain [m, K] × [K, n] product. -/
abbrev plain {m K n : ℕ}
    (wf : DotDims.WF (⟨2, ![m, K]⟩ : Shape) (⟨2, ![K, n]⟩ : Shape) (⟨2, ![m, n]⟩ : Shape) [1] [0] [0] [1] [] []) :
    DotDims (⟨2, ![m, K]⟩ : Shape) (⟨2, ![K, n]⟩ : Shape) (⟨2, ![m, n]⟩ : Shape) :=
  { lhsContracting := [1], rhsContracting := [0], lhsNonContracting := [0], rhsNonContracting := [1],
    lhsBatch := [], rhsBatch := [], wf := wf }

section
variable {m K n : ℕ}
  (wf : DotDims.WF (⟨2, ![m, K]⟩ : Shape) (⟨2, ![K, n]⟩ : Shape) (⟨2, ![m, n]⟩ : Shape) [1] [0] [0] [1] [] [])
  (j : (⟨2, ![m, n]⟩ : Shape).Idx) (k : (plain wf).contr.Idx)

/-- The left operand's row is the result's row. -/
theorem lhs_row : ((plain wf).lhsIdx j k 0).val = (j 0).val := by
  unfold DotDims.lhsIdx
  rw [dif_neg (show ¬(0 : Fin (⟨2, ![m, K]⟩ : Shape).rank) ∈ (plain wf).lhsBatch from List.not_mem_nil),
    dif_pos (show (0 : Fin (⟨2, ![m, K]⟩ : Shape).rank) ∈ (plain wf).lhsNonContracting from List.mem_singleton.mpr rfl)]
  rfl

/-- The left operand's column is the contracted coordinate. -/
theorem lhs_col : ((plain wf).lhsIdx j k 1).val = (k ⟨0, Nat.one_pos⟩).val :=
  (plain wf).lhsIdx_val_of_single rfl j k

/-- The right operand's row is the contracted coordinate. -/
theorem rhs_row : ((plain wf).rhsIdx j k 0).val = (k ⟨0, Nat.one_pos⟩).val :=
  (plain wf).rhsIdx_val_of_single rfl j k

/-- The right operand's column is the result's column. -/
theorem rhs_col : ((plain wf).rhsIdx j k 1).val = (j 1).val := by
  unfold DotDims.rhsIdx
  rw [dif_neg (show ¬(1 : Fin (⟨2, ![K, n]⟩ : Shape).rank) ∈ (plain wf).rhsBatch from List.not_mem_nil),
    dif_pos (show (1 : Fin (⟨2, ![K, n]⟩ : Shape).rank) ∈ (plain wf).rhsNonContracting from List.mem_singleton.mpr rfl)]
  rfl

end

/-- The sum over the record's contraction index, re-indexed by the contracted coordinate. -/
theorem contr_sum {m K n : ℕ}
    (wf : DotDims.WF (⟨2, ![m, K]⟩ : Shape) (⟨2, ![K, n]⟩ : Shape) (⟨2, ![m, n]⟩ : Shape) [1] [0] [0] [1] [] [])
    (l : (⟨2, ![m, K]⟩ : Shape).Idx → EReal) (r : (⟨2, ![K, n]⟩ : Shape).Idx → EReal) (p : Fin m) (q : Fin n) :
    (∑ k : (plain wf).contr.Idx, l ((plain wf).lhsIdx (ix2 p q) k) * r ((plain wf).rhsIdx (ix2 p q) k))
      = ∑ k : Fin K, l (ix2 p k) * r (ix2 k q) := by
  rw [← Equiv.sum_comp (contrEquiv1 (plain wf) K rfl rfl).symm]
  refine Finset.sum_congr rfl fun k _ => ?_
  have hk := contrEquiv1_symm_val (plain wf) K rfl rfl k
  have el : (plain wf).lhsIdx (ix2 p q) ((contrEquiv1 (plain wf) K rfl rfl).symm k) = ix2 p k :=
    funext fun a => Fin.ext (by
      match a with
      | ⟨0, _⟩ => exact lhs_row wf _ _
      | ⟨1, _⟩ => exact (lhs_col wf _ _).trans hk)
  have er : (plain wf).rhsIdx (ix2 p q) ((contrEquiv1 (plain wf) K rfl rfl).symm k) = ix2 k q :=
    funext fun a => Fin.ext (by
      match a with
      | ⟨0, _⟩ => exact (rhs_row wf _ _).trans hk
      | ⟨1, _⟩ => exact rhs_col wf _ _)
  rw [el, er]

/-- Entry (p, q) of a kernel's product into the zero splat is the sum over the contracted axis of the entries' products. -/
theorem matmul_zero_apply {m K n : ℕ} {φ₁ φ₂ : FTy}
    (wf : DotDims.WF (⟨2, ![m, K]⟩ : Shape) (⟨2, ![K, n]⟩ : Shape) (⟨2, ![m, n]⟩ : Shape) [1] [0] [0] [1] [] [])
    (prec : Option ContractPrecision)
    (l : FVec Ideal (⟨2, ![m, K]⟩ : Shape) φ₁) (r : FVec Ideal (⟨2, ![K, n]⟩ : Shape) φ₂) (p : Fin m) (q : Fin n) :
    FloatOps.matmul (plain wf) prec l r (constant (⟨2, ![m, n]⟩ : Shape) .f32 0x00000000#32) (ix2 p q)
      = ∑ k : Fin K, l (ix2 p k) * r (ix2 k q) := by
  rw [Ideal.matmul_constant_zero_apply]
  exact contr_sum wf l r p q

/-- Entry (p, q) of the host's `dot_general` of the same form, under any schedule key, is the same sum. -/
theorem dotGeneral_apply {m K n : ℕ} {φ₁ φ₂ : FTy}
    (wf : DotDims.WF (⟨2, ![m, K]⟩ : Shape) (⟨2, ![K, n]⟩ : Shape) (⟨2, ![m, n]⟩ : Shape) [1] [0] [0] [1] [] [])
    (prec : Option ContractPrecision) (sched : HostSchedule)
    (l : FVec Ideal (⟨2, ![m, K]⟩ : Shape) φ₁) (r : FVec Ideal (⟨2, ![K, n]⟩ : Shape) φ₂) (p : Fin m) (q : Fin n) :
    FloatOps.dotGeneral (plain wf) prec sched l r (ix2 p q) = ∑ k : Fin K, l (ix2 p k) * r (ix2 k q) := by
  rw [Ideal.dotGeneral_apply]
  exact contr_sum wf l r p q

end Cert.PlainMatmul

end
-- ==== Proof.LibKeepdims.lean ====
/-
  Layout operations of a sum taken with `keepdims`, read at an index given by coordinates, and a one-axis sum read
  as a sum over that axis's coordinate. General facts about shapes [a], [a, 1], [1, a] and [a, b]: nothing here
  mentions a program.

  • `shapeCast_a_a1_apply`: a vector [a] viewed as the column [a, 1] reads, at (i, u), the vector at i.
  • `broadcastTo_a1_ab_apply`: a column [a, 1] broadcast to [a, b] reads, at (p, c), the column at (p, 0).
  • `rowSum_apply`: the sum of an [a, b] array along its second axis reads, at p, the sum over k of the array at (p, k).
  • `rowSumSq_bcast_apply`: the squares of an [a, b] array summed along the second axis, kept as a column and broadcast
    to [a, c]: at (p, q) the sum over k of the square at (p, k) — a row's squared norm, the same in every column.
  • `colSumSq_bcast_apply`: the same sum for a [c, b] array, its column transposed to a row [1, c] and broadcast to
    [a, c]: at (p, q) the sum over k of the square at (q, k) — a row's squared norm, the same in every row.
-/
import Idealize.ShloMosaic.Lib.ValueLayout
import Idealize.ShloMosaic.PureOps.Ideal.Laws

noncomputable section

namespace Cert.Keepdims

open Idealize.ShloMosaic Idealize.ShloMosaic.ValueIdx

variable {α : Type}

/-- An `[a]` vector cast to the column `[a, 1]` reads, at `(i, u)`, the vector at `i`: the two row-major positions are
    `i` and `i * 1 + u` with `u = 0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry in row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-- A float sum of an `[a, b]` array along its second axis, on the extended reals, reads at `p` the sum over `k` of the
    array at `(p, k)`. -/
theorem rowSum_apply {a b : ℕ} (src : FVec Ideal ⟨2, ![a, b]⟩ .f32) (hR : (⟨2, ![a, b]⟩ : Shape).Reduces [1] ⟨1, ![a]⟩)
    (hφ : FKind.Formats .f32) (hacc : (0x00000000#32 : BitVec 32) = FKind.add.neutral .f32 hφ) (p : Fin a) :
    multiReduction (F := Ideal) .add [1] ⟨1, ![a]⟩ src 0x00000000#32 hR hφ hacc (ix1 p) = ∑ k : Fin b, src (ix2 p k) :=
  (Ideal.multiReduction_add_single src _ hR hφ hacc (ix1 p)).trans
    (Finset.sum_congr rfl fun k _ => congrArg src (funext fun d => by match d with | ⟨0, _⟩ => rfl | ⟨1, _⟩ => rfl))

/-- Each row's squared norm, kept as a column and broadcast along the rows of `[a, c]`. -/
theorem rowSumSq_bcast_apply {a b c : ℕ} (v : FVec Ideal ⟨2, ![a, b]⟩ .f32) (hR : (⟨2, ![a, b]⟩ : Shape).Reduces [1] ⟨1, ![a]⟩)
    (hφ : FKind.Formats .f32) (hacc : (0x00000000#32 : BitVec 32) = FKind.add.neutral .f32 hφ)
    (hC : (⟨1, ![a]⟩ : Shape).ShapeCasts ⟨2, ![a, 1]⟩) (hB : (⟨2, ![a, 1]⟩ : Shape).Broadcasts ⟨2, ![a, c]⟩) (p : Fin a) (q : Fin c) :
    broadcastTo ⟨2, ![a, c]⟩ (shapeCast ⟨2, ![a, 1]⟩ (multiReduction (F := Ideal) .add [1] ⟨1, ![a]⟩ (mulf v v) 0x00000000#32 hR hφ hacc) hC) hB (ix2 p q)
      = ∑ k : Fin b, v (ix2 p k) * v (ix2 p k) :=
  (broadcastTo_a1_ab_apply _ hB p q).trans
    ((shapeCast_a_a1_apply _ hC p 0).trans (rowSum_apply (mulf v v) hR hφ hacc p))

/-- Each row's squared norm of a `[c, b]` array, its column turned into a row and broadcast down the rows of `[a, c]`. -/
theorem colSumSq_bcast_apply {a b c : ℕ} (w : FVec Ideal ⟨2, ![c, b]⟩ .f32) (hR : (⟨2, ![c, b]⟩ : Shape).Reduces [1] ⟨1, ![c]⟩)
    (hφ : FKind.Formats .f32) (hacc : (0x00000000#32 : BitVec 32) = FKind.add.neutral .f32 hφ)
    (hC : (⟨1, ![c]⟩ : Shape).ShapeCasts ⟨2, ![c, 1]⟩) (hT : (⟨2, ![c, 1]⟩ : Shape).Transposes [1, 0] ⟨2, ![1, c]⟩)
    (hB : (⟨2, ![1, c]⟩ : Shape).Broadcasts ⟨2, ![a, c]⟩) (p : Fin a) (q : Fin c) :
    broadcastTo ⟨2, ![a, c]⟩ (transpose ⟨2, ![1, c]⟩ [1, 0]
        (shapeCast ⟨2, ![c, 1]⟩ (multiReduction (F := Ideal) .add [1] ⟨1, ![c]⟩ (mulf w w) 0x00000000#32 hR hφ hacc) hC) hT) hB (ix2 p q)
      = ∑ k : Fin b, w (ix2 q k) * w (ix2 q k) :=
  (broadcastTo_1b_ab_apply _ hB p q).trans
    ((transpose_ix2_apply _ hT 0 q).trans
      ((shapeCast_a_a1_apply _ hC q 0).trans (rowSum_apply (mulf w w) hR hφ hacc q)))

end Cert.Keepdims

end
-- ==== Proof.KPay.lean ====
/-
  The three kernel bodies' arithmetic, read at an entry.

  Every body loads whole blocks, computes one value and stores it whole; the generated skeleton names that value as a pure
  function of the loaded blocks. At the ideal values (a change of float format is the identity, a product into the zero
  accumulator is the plain sum of products) the three values read at row `p`, column `q` of the block:

  * the first body: `s p · Σ_j x p j · w j q` — the product of the block of features with the weight matrix, every row scaled
    by the row's entry of the column `s`;
  * the second body: `Σ_j (s p · max (s p · a p j + b j) 0) · w j q` — the aggregated features scaled by the column, the bias
    row added, clipped below at zero, scaled by the column once more, and multiplied by the second weight matrix;
  * the third body: `s p · a p q + b q`.
-/
import proofs.«145440_j34239479284114_2_alg».proof.Proof.Gen.KernelIdeal.Skeleton
import proofs.«145440_j34239479284114_2_alg».proof.Proof.LibPlainMatmul
import proofs.«145440_j34239479284114_2_alg».proof.Proof.LibKeepdims
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.KPay

open Idealize.ShloMosaic Idealize.ShloMosaic.ValueIdx Cert.KernelIdeal Cert.KernelIdeal.Gen

/-- The first body's value at `(p, q)`: the row's scale times the row of the features against the column of the weights. -/
theorem pay0_apply (x : FVec Ideal S4000x128 .bf16) (w : FVec Ideal S128x128 .bf16) (s : FVec Ideal S4000x1 .f32)
    (p : Fin 4000) (q : Fin 128) :
    k0_pay1 (F := Ideal) x w s (ix2 p q) = s (ix2 p (0 : Fin 1)) * ∑ j : Fin 128, x (ix2 p j) * w (ix2 j q) := by
  unfold k0_pay1
  show (broadcastTo S4000x128 (shapeCast S4000x1 s shapeCasts_S4000x1_S4000x1) broadcasts_S4000x1_S4000x128) (ix2 p q)
      * (matmul dot_S4000x128_S128x128_S4000x128_1_0_0_1_n_n none (shapeCast S4000x128 x shapeCasts_S4000x128_S4000x128)
          (shapeCast S128x128 w shapeCasts_S128x128_S128x128) (constant S4000x128 .f32 0x00000000#32)) (ix2 p q) = _
  rw [shapeCast_self, shapeCast_self, shapeCast_self]
  refine congr (congrArg _ ?_) ?_
  · exact Cert.Keepdims.broadcastTo_a1_ab_apply s broadcasts_S4000x1_S4000x128 p q
  · exact Cert.PlainMatmul.matmul_zero_apply dot_S4000x128_S128x128_S4000x128_1_0_0_1_n_n.wf none x w p q

/-- The second body's value at `(p, q)`. The column of scales is loaded twice (`s` and `s'` are the two loads). -/
theorem pay1_apply (s : FVec Ideal S4000x1 .f32) (a : FVec Ideal S4000x128 .f32) (b : FVec Ideal S1x128 .f32)
    (s' : FVec Ideal S4000x1 .f32) (w : FVec Ideal S128x64 .bf16) (p : Fin 4000) (q : Fin 64) :
    k1_pay1 (F := Ideal) s a b s' w (ix2 p q)
      = ∑ j : Fin 128, (s' (ix2 p (0 : Fin 1)) * max (s (ix2 p (0 : Fin 1)) * a (ix2 p j) + b (ix2 (0 : Fin 1) j)) 0) * w (ix2 j q) := by
  unfold k1_pay1
  show (matmul dot_S4000x128_S128x64_S4000x64_1_0_0_1_n_n none
      (truncf .bf16 (mulf (broadcastTo S4000x128 (shapeCast S4000x1 s' shapeCasts_S4000x1_S4000x1) broadcasts_S4000x1_S4000x128)
        (maximumf (addf (mulf (broadcastTo S4000x128 (shapeCast S4000x1 s shapeCasts_S4000x1_S4000x1) broadcasts_S4000x1_S4000x128)
            (shapeCast S4000x128 a shapeCasts_S4000x128_S4000x128))
          (broadcastTo S4000x128 (shapeCast S1x128 b shapeCasts_S1x128_S1x128) broadcasts_S1x128_S4000x128))
          (broadcast S4000x128 (Scalar.ofBits .f32 0x00000000#32)))) bitsLt_bf16_f32)
      (shapeCast S128x64 w shapeCasts_S128x64_S128x64) (constant S4000x64 .f32 0x00000000#32)) (ix2 p q) = _
  rw [shapeCast_self, shapeCast_self, shapeCast_self, shapeCast_self, shapeCast_self]
  refine (Cert.PlainMatmul.matmul_zero_apply dot_S4000x128_S128x64_S4000x64_1_0_0_1_n_n.wf none _ w p q).trans ?_
  refine Finset.sum_congr rfl fun j _ => ?_
  show (broadcastTo S4000x128 s' broadcasts_S4000x1_S4000x128 (ix2 p j)
      * max (broadcastTo S4000x128 s broadcasts_S4000x1_S4000x128 (ix2 p j) * a (ix2 p j)
          + broadcastTo S4000x128 b broadcasts_S1x128_S4000x128 (ix2 p j)) (Ideal.ofBits .f32 0x00000000#32)) * w (ix2 j q) = _
  rw [Cert.Keepdims.broadcastTo_a1_ab_apply s' broadcasts_S4000x1_S4000x128 p j,
    Cert.Keepdims.broadcastTo_a1_ab_apply s broadcasts_S4000x1_S4000x128 p j,
    broadcastTo_1b_ab_apply b broadcasts_S1x128_S4000x128 p j, Ideal.ofBits_zero_f32]

/-- The third body's value at `(p, q)`. -/
theorem pay2_apply (s : FVec Ideal S4000x1 .f32) (a : FVec Ideal S4000x64 .f32) (b : FVec Ideal S1x64 .f32)
    (p : Fin 4000) (q : Fin 64) :
    k2_pay1 (F := Ideal) s a b (ix2 p q) = s (ix2 p (0 : Fin 1)) * a (ix2 p q) + b (ix2 (0 : Fin 1) q) := by
  unfold k2_pay1
  show (broadcastTo S4000x64 (shapeCast S4000x1 s shapeCasts_S4000x1_S4000x1) broadcasts_S4000x1_S4000x64) (ix2 p q)
      * (shapeCast S4000x64 a shapeCasts_S4000x64_S4000x64) (ix2 p q)
      + (broadcastTo S4000x64 (shapeCast S1x64 b shapeCasts_S1x64_S1x64) broadcasts_S1x64_S4000x64) (ix2 p q) = _
  rw [shapeCast_self, shapeCast_self, shapeCast_self,
    Cert.Keepdims.broadcastTo_a1_ab_apply s broadcasts_S4000x1_S4000x64 p q,
    broadcastTo_1b_ab_apply b broadcasts_S1x64_S4000x64 p q]

end Cert.KernelIdeal.KPay

end
-- ==== Proof.KReg0.lean ====
/-
  The first pipelined call, read whole.

  The call walks 25 grid points; point `t` fetches rows `4000·t … 4000·t + 3999` of the feature array and of the column of
  scales, the whole weight matrix, and writes back the same rows of its output. So row `4000·t + p` of the output is the
  body's value at row `p` of block `t`, the blocks tile the array, and the array after the call is ONE function of the
  arrays the call finds: entry `(r, q)` is `s r · Σ_j x r j · w j q`. The statement holds for whatever contents `V` the call
  is entered from.
-/
import proofs.«145440_j34239479284114_2_alg».proof.Proof.Gen.KernelIdeal.Frame
import proofs.«145440_j34239479284114_2_alg».proof.Proof.KPay

set_option maxRecDepth 16384

noncomputable section

open scoped BigOperators

namespace Cert.KernelIdeal.KReg0

open Idealize.ShloMosaic Idealize.ShloMosaic.TcCoe Idealize.ShloMosaic.ValueIdx
open Idealize.SL.Sem
open Idealize.ShloMosaic.Pipeline (Dat Cfg Window)
open Cert.KernelIdeal Cert.KernelIdeal.Gen Cert.KernelIdeal.KPay

variable (V : (c : Dev nD) → (b : Ref sig .tc) → Buf (Elt Ideal) ((c : Thread nD τ).loc b))

theorem hz : (![0, 0] : Fin 2 → Nat) = fun _ => 0 := funext fun a => by fin_cases a <;> rfl

/-- Entry `(r, q)` of the call's output: the scale of row `r` times row `r` of the features against column `q` of the weights. -/
def entry (x : S100000x128.Idx → EReal) (w : S128x128.Idx → EReal) (s : S100000x1.Idx → EReal) (r : Fin 100000) (q : Fin 128) : EReal :=
  s (ix2 r (0 : Fin 1)) * ∑ j : Fin 128, x (ix2 r j) * w (ix2 j q)

/-- The call's output as one array. -/
def whole (x : S100000x128.Idx → EReal) (w : S128x128.Idx → EReal) (s : S100000x1.Idx → EReal) : S100000x128.Idx → EReal :=
  fun i => entry x w s (i 0) (i 1)

theorem whole_apply (x : S100000x128.Idx → EReal) (w : S128x128.Idx → EReal) (s : S100000x1.Idx → EReal) (r : Fin 100000) (q : Fin 128) :
    whole x w s (ix2 r q) = entry x w s r q := rfl

/-- The printed index maps over the grid: the three row-blocked windows sit at block row `t`, the weights at block `(0, 0)`. -/
theorem idx : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

theorem row_lt (t : Fin cfg0.N) (p : Fin 4000) : t.val * 4000 + p.val < 100000 := by
  have ht : t.val < 25 := lt_of_lt_of_eq t.isLt N_0
  have hp := p.isLt
  omega

/-- Row `p` of block `t` of the output is row `4000·t + p` of the array. -/
theorem emb3 (t : Fin cfg0.N) (p : Fin 4000) (q : Fin 128) :
    ((cfg0.win 3).blk t).view.emb (ix2 p q) = (ix2 (⟨t.val * 4000 + p.val, row_lt t p⟩ : Fin 100000) q : S100000x128.Idx) := by
  obtain ⟨-, -, -, -, -, -, e0, e1⟩ := idx t
  funext a; apply Fin.ext
  match a with
  | ⟨0, _⟩ => show win0_3.index t (0 : Fin 2) * 4000 + 1 * p.val = t.val * 4000 + p.val; rw [e0]; omega
  | ⟨1, _⟩ => show win0_3.index t (1 : Fin 2) * 128 + 1 * q.val = q.val; rw [e1]; omega

/-- The same rows of the features … -/
theorem emb0 (t : Fin cfg0.N) (p : Fin 4000) (j : Fin 128) :
    ((cfg0.win 0).blk t).view.emb (ix2 p j) = (ix2 (⟨t.val * 4000 + p.val, row_lt t p⟩ : Fin 100000) j : S100000x128.Idx) := by
  obtain ⟨e0, e1, -, -, -, -, -, -⟩ := idx t
  funext a; apply Fin.ext
  match a with
  | ⟨0, _⟩ => show win0_0.index t (0 : Fin 2) * 4000 + 1 * p.val = t.val * 4000 + p.val; rw [e0]; omega
  | ⟨1, _⟩ => show win0_0.index t (1 : Fin 2) * 128 + 1 * j.val = j.val; rw [e1]; omega

/-- … the whole weight matrix … -/
theorem emb1 (t : Fin cfg0.N) (j : Fin 128) (q : Fin 128) :
    ((cfg0.win 1).blk t).view.emb (ix2 j q) = (ix2 j q : S128x128.Idx) := by
  obtain ⟨-, -, e0, e1, -, -, -, -⟩ := idx t
  funext a; apply Fin.ext
  match a with
  | ⟨0, _⟩ => show win0_1.index t (0 : Fin 2) * 128 + 1 * j.val = j.val; rw [e0]; omega
  | ⟨1, _⟩ => show win0_1.index t (1 : Fin 2) * 128 + 1 * q.val = q.val; rw [e1]; omega

/-- … and the same rows of the column of scales. -/
theorem emb2 (t : Fin cfg0.N) (p : Fin 4000) :
    ((cfg0.win 2).blk t).view.emb (ix2 p (0 : Fin 1)) = (ix2 (⟨t.val * 4000 + p.val, row_lt t p⟩ : Fin 100000) (0 : Fin 1) : S100000x1.Idx) := by
  obtain ⟨-, -, -, -, e0, e1, -, -⟩ := idx t
  funext a; apply Fin.ext
  match a with
  | ⟨0, _⟩ => show win0_2.index t (0 : Fin 2) * 4000 + 1 * p.val = t.val * 4000 + p.val; rw [e0]; omega
  | ⟨1, _⟩ => show win0_2.index t (1 : Fin 2) * 1 + 1 * 0 = 0; rw [e1]

/-- What point `t` writes back is block `t` of the whole-array function of the arrays the call finds. -/
theorem flushed (c : Dev nD) (t : Fin cfg0.N) :
    (dat0 V c).flushed 3 t = ((cfg0.win 3).blk t).view.read (Elt Ideal) (whole (V c main_v17) (V c main_v18) (V c main_v16)) := by
  show (cfg0.win 3).cut (grid0.coords t) ((dat0 V c).after 3 t) = _
  rw [after0_3]
  unfold out0_3
  rw [View.canon_unit_zero hz]
  simp only [View.ld_unit_zero (S := S4000x128) hz, View.ld_unit_zero (S := S128x128) hz, View.ld_unit_zero (S := S4000x1) hz]
  funext y
  obtain ⟨p, q, rfl⟩ : ∃ (p : Fin 4000) (q : Fin 128), y = ix2 p q := ⟨y 0, y 1, eq_ix2 y⟩
  show k0_pay1 (iblk0 V c 0 t) (iblk0 V c 1 t) (iblk0 V c 2 t) (ix2 p q)
    = whole (V c main_v17) (V c main_v18) (V c main_v16) (((cfg0.win 3).blk t).view.emb (ix2 p q))
  rw [emb3 t p q, whole_apply]
  refine (pay0_apply (iblk0 V c 0 t) (iblk0 V c 1 t) (iblk0 V c 2 t) p q).trans ?_
  unfold entry
  have h2 : iblk0 V c 2 t (ix2 p (0 : Fin 1)) = V c main_v16 (ix2 (⟨t.val * 4000 + p.val, row_lt t p⟩ : Fin 100000) (0 : Fin 1)) :=
    congrArg (V c main_v16) (emb2 t p)
  have h0 : ∀ j : Fin 128, iblk0 V c 0 t (ix2 p j) = V c main_v17 (ix2 (⟨t.val * 4000 + p.val, row_lt t p⟩ : Fin 100000) j) :=
    fun j => congrArg (V c main_v17) (emb0 t p j)
  have h1 : ∀ j : Fin 128, iblk0 V c 1 t (ix2 j q) = V c main_v18 (ix2 j q) :=
    fun j => congrArg (V c main_v18) (emb1 t j q)
  rw [h2]
  refine congrArg _ (Finset.sum_congr rfl fun j _ => ?_)
  rw [h0 j, h1 j]

/-- An index of the array is in point `t`'s block iff each coordinate is in the block's range on its axis. -/
theorem mem_blk (t : Fin cfg0.N) (i : S100000x128.Idx) :
    i ∈ ((cfg0.win 3).blk t).view.set ↔ ∀ a : Fin 2, win0_3.index t a * S4000x128.size a ≤ (i a).val ∧ (i a).val < win0_3.index t a * S4000x128.size a + S4000x128.size a := by
  show i ∈ ((View.whole main_v19).slice (win0_3.rect t)).set ↔ _
  rw [View.set_slice_whole, Rect.mem_set_unit]
  exact Iff.rfl

/-- Every row lies in the block of the point `row / 4000`. -/
theorem cover (i : S100000x128.Idx) : ∃ t : Fin cfg0.N, (cfg0.win 3).flush t = true ∧ i ∈ ((cfg0.win 3).blk t).view.set := by
  have hi0 : (i 0).val < 100000 := (i 0).isLt
  have hi1 : (i 1).val < 128 := (i 1).isLt
  have hN : cfg0.N = 25 := N_0
  have ht : (i 0).val / 4000 < cfg0.N := by rw [hN]; omega
  refine ⟨⟨(i 0).val / 4000, ht⟩, flush0_3 _, ?_⟩
  rw [mem_blk]
  obtain ⟨-, -, -, -, -, -, e0, e1⟩ := idx ⟨(i 0).val / 4000, ht⟩
  intro a
  match a with
  | ⟨0, _⟩ =>
    show win0_3.index ⟨(i 0).val / 4000, ht⟩ (0 : Fin 2) * 4000 ≤ (i 0).val ∧ (i 0).val < win0_3.index ⟨(i 0).val / 4000, ht⟩ (0 : Fin 2) * 4000 + 4000
    rw [e0]; show (i 0).val / 4000 * 4000 ≤ (i 0).val ∧ (i 0).val < (i 0).val / 4000 * 4000 + 4000; omega
  | ⟨1, _⟩ =>
    show win0_3.index ⟨(i 0).val / 4000, ht⟩ (1 : Fin 2) * 128 ≤ (i 1).val ∧ (i 1).val < win0_3.index ⟨(i 0).val / 4000, ht⟩ (1 : Fin 2) * 128 + 128
    rw [e1]; omega

/-- THE OUTPUT ARRAY after the call, whatever contents it was entered from. -/
theorem final (c : Dev nD) : (dat0 V c).arrAt 3 cfg0.N = whole (V c main_v17) (V c main_v18) (V c main_v16) :=
  (dat0 V c).arrAt_eq_of_cover 3 (whole (V c main_v17) (V c main_v18) (V c main_v16)) (fun t _ => flushed V c t) cover

end Cert.KernelIdeal.KReg0

end
-- ==== Proof.KReg1.lean ====
/-
  The second pipelined call, read whole.

  Point `t` of its 25 grid points fetches rows `4000·t … 4000·t + 3999` of the aggregated features and of the column of
  scales, the whole bias row and the whole second weight matrix, and writes back the same rows of its output. The blocks
  tile the output, so the array after the call is one function of the arrays the call finds: entry `(r, q)` is
  `Σ_j (s r · max (s r · a r j + b j) 0) · w j q`, whatever contents `V` the call is entered from.
-/
import proofs.«145440_j34239479284114_2_alg».proof.Proof.Gen.KernelIdeal.Frame
import proofs.«145440_j34239479284114_2_alg».proof.Proof.KPay

set_option maxRecDepth 16384

noncomputable section

open scoped BigOperators

namespace Cert.KernelIdeal.KReg1

open Idealize.ShloMosaic Idealize.ShloMosaic.TcCoe Idealize.ShloMosaic.ValueIdx
open Idealize.SL.Sem
open Idealize.ShloMosaic.Pipeline (Dat Cfg Window)
open Cert.KernelIdeal Cert.KernelIdeal.Gen Cert.KernelIdeal.KPay

variable (V : (c : Dev nD) → (b : Ref sig .tc) → Buf (Elt Ideal) ((c : Thread nD τ).loc b))

theorem hz : (![0, 0] : Fin 2 → Nat) = fun _ => 0 := funext fun a => by fin_cases a <;> rfl

/-- Entry `(r, q)` of the call's output. -/
def entry (a : S100000x128.Idx → EReal) (s : S100000x1.Idx → EReal) (b : S1x128.Idx → EReal) (w : S128x64.Idx → EReal)
    (r : Fin 100000) (q : Fin 64) : EReal :=
  ∑ j : Fin 128, (s (ix2 r (0 : Fin 1)) * max (s (ix2 r (0 : Fin 1)) * a (ix2 r j) + b (ix2 (0 : Fin 1) j)) 0) * w (ix2 j q)

/-- The call's output as one array. -/
def whole (a : S100000x128.Idx → EReal) (s : S100000x1.Idx → EReal) (b : S1x128.Idx → EReal) (w : S128x64.Idx → EReal) :
    S100000x64.Idx → EReal :=
  fun i => entry a s b w (i 0) (i 1)

theorem whole_apply (a : S100000x128.Idx → EReal) (s : S100000x1.Idx → EReal) (b : S1x128.Idx → EReal) (w : S128x64.Idx → EReal)
    (r : Fin 100000) (q : Fin 64) : whole a s b w (ix2 r q) = entry a s b w r q := rfl

/-- The printed index maps over the grid: the row-blocked windows sit at block row `t`, the bias and the weights at block `(0, 0)`. -/
theorem idx : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

theorem row_lt (t : Fin cfg1.N) (p : Fin 4000) : t.val * 4000 + p.val < 100000 := by
  have ht : t.val < 25 := lt_of_lt_of_eq t.isLt N_1
  have hp := p.isLt
  omega

/-- Row `p` of block `t` of the output is row `4000·t + p` of the array. -/
theorem emb4 (t : Fin cfg1.N) (p : Fin 4000) (q : Fin 64) :
    ((cfg1.win 4).blk t).view.emb (ix2 p q) = (ix2 (⟨t.val * 4000 + p.val, row_lt t p⟩ : Fin 100000) q : S100000x64.Idx) := by
  obtain ⟨-, -, -, -, -, -, -, -, e0, e1⟩ := idx t
  funext a; apply Fin.ext
  match a with
  | ⟨0, _⟩ => show win1_4.index t (0 : Fin 2) * 4000 + 1 * p.val = t.val * 4000 + p.val; rw [e0]; omega
  | ⟨1, _⟩ => show win1_4.index t (1 : Fin 2) * 64 + 1 * q.val = q.val; rw [e1]; omega

/-- The same rows of the aggregated features … -/
theorem emb0 (t : Fin cfg1.N) (p : Fin 4000) (j : Fin 128) :
    ((cfg1.win 0).blk t).view.emb (ix2 p j) = (ix2 (⟨t.val * 4000 + p.val, row_lt t p⟩ : Fin 100000) j : S100000x128.Idx) := by
  obtain ⟨e0, e1, -, -, -, -, -, -, -, -⟩ := idx t
  funext a; apply Fin.ext
  match a with
  | ⟨0, _⟩ => show win1_0.index t (0 : Fin 2) * 4000 + 1 * p.val = t.val * 4000 + p.val; rw [e0]; omega
  | ⟨1, _⟩ => show win1_0.index t (1 : Fin 2) * 128 + 1 * j.val = j.val; rw [e1]; omega

/-- … and of the column of scales, … -/
theorem emb1 (t : Fin cfg1.N) (p : Fin 4000) :
    ((cfg1.win 1).blk t).view.emb (ix2 p (0 : Fin 1)) = (ix2 (⟨t.val * 4000 + p.val, row_lt t p⟩ : Fin 100000) (0 : Fin 1) : S100000x1.Idx) := by
  obtain ⟨-, -, e0, e1, -, -, -, -, -, -⟩ := idx t
  funext a; apply Fin.ext
  match a with
  | ⟨0, _⟩ => show win1_1.index t (0 : Fin 2) * 4000 + 1 * p.val = t.val * 4000 + p.val; rw [e0]; omega
  | ⟨1, _⟩ => show win1_1.index t (1 : Fin 2) * 1 + 1 * 0 = 0; rw [e1]

/-- … the whole bias row … -/
theorem emb2 (t : Fin cfg1.N) (j : Fin 128) :
    ((cfg1.win 2).blk t).view.emb (ix2 (0 : Fin 1) j) = (ix2 (0 : Fin 1) j : S1x128.Idx) := by
  obtain ⟨-, -, -, -, e0, e1, -, -, -, -⟩ := idx t
  funext a; apply Fin.ext
  match a with
  | ⟨0, _⟩ => show win1_2.index t (0 : Fin 2) * 1 + 1 * 0 = 0; rw [e0]
  | ⟨1, _⟩ => show win1_2.index t (1 : Fin 2) * 128 + 1 * j.val = j.val; rw [e1]; omega

/-- … and the whole weight matrix. -/
theorem emb3 (t : Fin cfg1.N) (j : Fin 128) (q : Fin 64) :
    ((cfg1.win 3).blk t).view.emb (ix2 j q) = (ix2 j q : S128x64.Idx) := by
  obtain ⟨-, -, -, -, -, -, e0, e1, -, -⟩ := idx t
  funext a; apply Fin.ext
  match a with
  | ⟨0, _⟩ => show win1_3.index t (0 : Fin 2) * 128 + 1 * j.val = j.val; rw [e0]; omega
  | ⟨1, _⟩ => show win1_3.index t (1 : Fin 2) * 64 + 1 * q.val = q.val; rw [e1]; omega

/-- What point `t` writes back is block `t` of the whole-array function of the arrays the call finds. -/
theorem flushed (c : Dev nD) (t : Fin cfg1.N) :
    (dat1 V c).flushed 4 t = ((cfg1.win 4).blk t).view.read (Elt Ideal)
      (whole (V c main_v29) (V c main_v16) (V c main_v30) (V c main_v31)) := by
  show (cfg1.win 4).cut (grid1.coords t) ((dat1 V c).after 4 t) = _
  rw [after1_4]
  unfold out1_4
  rw [View.canon_unit_zero hz]
  simp only [View.ld_unit_zero (S := S4000x128) hz, View.ld_unit_zero (S := S4000x1) hz, View.ld_unit_zero (S := S1x128) hz,
    View.ld_unit_zero (S := S128x64) hz]
  funext y
  obtain ⟨p, q, rfl⟩ : ∃ (p : Fin 4000) (q : Fin 64), y = ix2 p q := ⟨y 0, y 1, eq_ix2 y⟩
  show k1_pay1 (iblk1 V c 1 t) (iblk1 V c 0 t) (iblk1 V c 2 t) (iblk1 V c 1 t) (iblk1 V c 3 t) (ix2 p q)
    = whole (V c main_v29) (V c main_v16) (V c main_v30) (V c main_v31) (((cfg1.win 4).blk t).view.emb (ix2 p q))
  rw [emb4 t p q, whole_apply]
  refine (pay1_apply (iblk1 V c 1 t) (iblk1 V c 0 t) (iblk1 V c 2 t) (iblk1 V c 1 t) (iblk1 V c 3 t) p q).trans ?_
  unfold entry
  have h1 : iblk1 V c 1 t (ix2 p (0 : Fin 1)) = V c main_v16 (ix2 (⟨t.val * 4000 + p.val, row_lt t p⟩ : Fin 100000) (0 : Fin 1)) :=
    congrArg (V c main_v16) (emb1 t p)
  have h0 : ∀ j : Fin 128, iblk1 V c 0 t (ix2 p j) = V c main_v29 (ix2 (⟨t.val * 4000 + p.val, row_lt t p⟩ : Fin 100000) j) :=
    fun j => congrArg (V c main_v29) (emb0 t p j)
  have h2 : ∀ j : Fin 128, iblk1 V c 2 t (ix2 (0 : Fin 1) j) = V c main_v30 (ix2 (0 : Fin 1) j) :=
    fun j => congrArg (V c main_v30) (emb2 t j)
  have h3 : ∀ j : Fin 128, iblk1 V c 3 t (ix2 j q) = V c main_v31 (ix2 j q) :=
    fun j => congrArg (V c main_v31) (emb3 t j q)
  rw [h1]
  refine Finset.sum_congr rfl fun j _ => ?_
  rw [h0 j, h2 j, h3 j]

/-- An index of the array is in point `t`'s block iff each coordinate is in the block's range on its axis. -/
theorem mem_blk (t : Fin cfg1.N) (i : S100000x64.Idx) :
    i ∈ ((cfg1.win 4).blk t).view.set ↔ ∀ a : Fin 2, win1_4.index t a * S4000x64.size a ≤ (i a).val ∧ (i a).val < win1_4.index t a * S4000x64.size a + S4000x64.size a := by
  show i ∈ ((View.whole main_v32).slice (win1_4.rect t)).set ↔ _
  rw [View.set_slice_whole, Rect.mem_set_unit]
  exact Iff.rfl

/-- Every row lies in the block of the point `row / 4000`. -/
theorem cover (i : S100000x64.Idx) : ∃ t : Fin cfg1.N, (cfg1.win 4).flush t = true ∧ i ∈ ((cfg1.win 4).blk t).view.set := by
  have hi0 : (i 0).val < 100000 := (i 0).isLt
  have hi1 : (i 1).val < 64 := (i 1).isLt
  have hN : cfg1.N = 25 := N_1
  have ht : (i 0).val / 4000 < cfg1.N := by rw [hN]; omega
  refine ⟨⟨(i 0).val / 4000, ht⟩, flush1_4 _, ?_⟩
  rw [mem_blk]
  obtain ⟨-, -, -, -, -, -, -, -, e0, e1⟩ := idx ⟨(i 0).val / 4000, ht⟩
  intro a
  match a with
  | ⟨0, _⟩ =>
    show win1_4.index ⟨(i 0).val / 4000, ht⟩ (0 : Fin 2) * 4000 ≤ (i 0).val ∧ (i 0).val < win1_4.index ⟨(i 0).val / 4000, ht⟩ (0 : Fin 2) * 4000 + 4000
    rw [e0]; show (i 0).val / 4000 * 4000 ≤ (i 0).val ∧ (i 0).val < (i 0).val / 4000 * 4000 + 4000; omega
  | ⟨1, _⟩ =>
    show win1_4.index ⟨(i 0).val / 4000, ht⟩ (1 : Fin 2) * 64 ≤ (i 1).val ∧ (i 1).val < win1_4.index ⟨(i 0).val / 4000, ht⟩ (1 : Fin 2) * 64 + 64
    rw [e1]; omega

/-- THE OUTPUT ARRAY after the call, whatever contents it was entered from. -/
theorem final (c : Dev nD) : (dat1 V c).arrAt 4 cfg1.N = whole (V c main_v29) (V c main_v16) (V c main_v30) (V c main_v31) :=
  (dat1 V c).arrAt_eq_of_cover 4 (whole (V c main_v29) (V c main_v16) (V c main_v30) (V c main_v31)) (fun t _ => flushed V c t) cover

end Cert.KernelIdeal.KReg1

end
-- ==== Proof.KReg2.lean ====
/-
  The third pipelined call, read whole.

  Point `t` of its 25 grid points fetches rows `4000·t … 4000·t + 3999` of the aggregated features and of the column of
  scales and the whole bias row, and writes back the same rows of the result. The blocks tile the result, so the array
  after the call is one function of the arrays the call finds: entry `(r, q)` is `s r · a r q + b q`, whatever contents `V`
  the call is entered from.
-/
import proofs.«145440_j34239479284114_2_alg».proof.Proof.Gen.KernelIdeal.Frame
import proofs.«145440_j34239479284114_2_alg».proof.Proof.KPay

set_option maxRecDepth 16384

noncomputable section

open scoped BigOperators

namespace Cert.KernelIdeal.KReg2

open Idealize.ShloMosaic Idealize.ShloMosaic.TcCoe Idealize.ShloMosaic.ValueIdx
open Idealize.SL.Sem
open Idealize.ShloMosaic.Pipeline (Dat Cfg Window)
open Cert.KernelIdeal Cert.KernelIdeal.Gen Cert.KernelIdeal.KPay

variable (V : (c : Dev nD) → (b : Ref sig .tc) → Buf (Elt Ideal) ((c : Thread nD τ).loc b))

theorem hz : (![0, 0] : Fin 2 → Nat) = fun _ => 0 := funext fun a => by fin_cases a <;> rfl

/-- Entry `(r, q)` of the call's output. -/
def entry (a : S100000x64.Idx → EReal) (s : S100000x1.Idx → EReal) (b : S1x64.Idx → EReal) (r : Fin 100000) (q : Fin 64) : EReal :=
  s (ix2 r (0 : Fin 1)) * a (ix2 r q) + b (ix2 (0 : Fin 1) q)

/-- The call's output as one array. -/
def whole (a : S100000x64.Idx → EReal) (s : S100000x1.Idx → EReal) (b : S1x64.Idx → EReal) : S100000x64.Idx → EReal :=
  fun i => entry a s b (i 0) (i 1)

theorem whole_apply (a : S100000x64.Idx → EReal) (s : S100000x1.Idx → EReal) (b : S1x64.Idx → EReal) (r : Fin 100000) (q : Fin 64) :
    whole a s b (ix2 r q) = entry a s b r q := rfl

/-- The printed index maps over the grid: the row-blocked windows sit at block row `t`, the bias at block `(0, 0)`. -/
theorem idx : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

theorem row_lt (t : Fin cfg2.N) (p : Fin 4000) : t.val * 4000 + p.val < 100000 := by
  have ht : t.val < 25 := lt_of_lt_of_eq t.isLt N_2
  have hp := p.isLt
  omega

/-- Row `p` of block `t` of the result is row `4000·t + p` of the array. -/
theorem emb3 (t : Fin cfg2.N) (p : Fin 4000) (q : Fin 64) :
    ((cfg2.win 3).blk t).view.emb (ix2 p q) = (ix2 (⟨t.val * 4000 + p.val, row_lt t p⟩ : Fin 100000) q : S100000x64.Idx) := by
  obtain ⟨-, -, -, -, -, -, e0, e1⟩ := idx t
  funext a; apply Fin.ext
  match a with
  | ⟨0, _⟩ => show win2_3.index t (0 : Fin 2) * 4000 + 1 * p.val = t.val * 4000 + p.val; rw [e0]; omega
  | ⟨1, _⟩ => show win2_3.index t (1 : Fin 2) * 64 + 1 * q.val = q.val; rw [e1]; omega

/-- The same rows of the aggregated features … -/
theorem emb0 (t : Fin cfg2.N) (p : Fin 4000) (q : Fin 64) :
    ((cfg2.win 0).blk t).view.emb (ix2 p q) = (ix2 (⟨t.val * 4000 + p.val, row_lt t p⟩ : Fin 100000) q : S100000x64.Idx) := by
  obtain ⟨e0, e1, -, -, -, -, -, -⟩ := idx t
  funext a; apply Fin.ext
  match a with
  | ⟨0, _⟩ => show win2_0.index t (0 : Fin 2) * 4000 + 1 * p.val = t.val * 4000 + p.val; rw [e0]; omega
  | ⟨1, _⟩ => show win2_0.index t (1 : Fin 2) * 64 + 1 * q.val = q.val; rw [e1]; omega

/-- … and of the column of scales, … -/
theorem emb1 (t : Fin cfg2.N) (p : Fin 4000) :
    ((cfg2.win 1).blk t).view.emb (ix2 p (0 : Fin 1)) = (ix2 (⟨t.val * 4000 + p.val, row_lt t p⟩ : Fin 100000) (0 : Fin 1) : S100000x1.Idx) := by
  obtain ⟨-, -, e0, e1, -, -, -, -⟩ := idx t
  funext a; apply Fin.ext
  match a with
  | ⟨0, _⟩ => show win2_1.index t (0 : Fin 2) * 4000 + 1 * p.val = t.val * 4000 + p.val; rw [e0]; omega
  | ⟨1, _⟩ => show win2_1.index t (1 : Fin 2) * 1 + 1 * 0 = 0; rw [e1]

/-- … and the whole bias row. -/
theorem emb2 (t : Fin cfg2.N) (q : Fin 64) :
    ((cfg2.win 2).blk t).view.emb (ix2 (0 : Fin 1) q) = (ix2 (0 : Fin 1) q : S1x64.Idx) := by
  obtain ⟨-, -, -, -, e0, e1, -, -⟩ := idx t
  funext a; apply Fin.ext
  match a with
  | ⟨0, _⟩ => show win2_2.index t (0 : Fin 2) * 1 + 1 * 0 = 0; rw [e0]
  | ⟨1, _⟩ => show win2_2.index t (1 : Fin 2) * 64 + 1 * q.val = q.val; rw [e1]; omega

/-- What point `t` writes back is block `t` of the whole-array function of the arrays the call finds. -/
theorem flushed (c : Dev nD) (t : Fin cfg2.N) :
    (dat2 V c).flushed 3 t = ((cfg2.win 3).blk t).view.read (Elt Ideal) (whole (V c main_v42) (V c main_v16) (V c main_v43)) := by
  show (cfg2.win 3).cut (grid2.coords t) ((dat2 V c).after 3 t) = _
  rw [after2_3]
  unfold out2_3
  rw [View.canon_unit_zero hz]
  simp only [View.ld_unit_zero (S := S4000x64) hz, View.ld_unit_zero (S := S4000x1) hz, View.ld_unit_zero (S := S1x64) hz]
  funext y
  obtain ⟨p, q, rfl⟩ : ∃ (p : Fin 4000) (q : Fin 64), y = ix2 p q := ⟨y 0, y 1, eq_ix2 y⟩
  show k2_pay1 (iblk2 V c 1 t) (iblk2 V c 0 t) (iblk2 V c 2 t) (ix2 p q)
    = whole (V c main_v42) (V c main_v16) (V c main_v43) (((cfg2.win 3).blk t).view.emb (ix2 p q))
  rw [emb3 t p q, whole_apply]
  refine (pay2_apply (iblk2 V c 1 t) (iblk2 V c 0 t) (iblk2 V c 2 t) p q).trans ?_
  unfold entry
  have h1 : iblk2 V c 1 t (ix2 p (0 : Fin 1)) = V c main_v16 (ix2 (⟨t.val * 4000 + p.val, row_lt t p⟩ : Fin 100000) (0 : Fin 1)) :=
    congrArg (V c main_v16) (emb1 t p)
  have h0 : iblk2 V c 0 t (ix2 p q) = V c main_v42 (ix2 (⟨t.val * 4000 + p.val, row_lt t p⟩ : Fin 100000) q) :=
    congrArg (V c main_v42) (emb0 t p q)
  have h2 : iblk2 V c 2 t (ix2 (0 : Fin 1) q) = V c main_v43 (ix2 (0 : Fin 1) q) :=
    congrArg (V c main_v43) (emb2 t q)
  rw [h1, h0, h2]

/-- An index of the array is in point `t`'s block iff each coordinate is in the block's range on its axis. -/
theorem mem_blk (t : Fin cfg2.N) (i : S100000x64.Idx) :
    i ∈ ((cfg2.win 3).blk t).view.set ↔ ∀ a : Fin 2, win2_3.index t a * S4000x64.size a ≤ (i a).val ∧ (i a).val < win2_3.index t a * S4000x64.size a + S4000x64.size a := by
  show i ∈ ((View.whole main_v44).slice (win2_3.rect t)).set ↔ _
  rw [View.set_slice_whole, Rect.mem_set_unit]
  exact Iff.rfl

/-- Every row lies in the block of the point `row / 4000`. -/
theorem cover (i : S100000x64.Idx) : ∃ t : Fin cfg2.N, (cfg2.win 3).flush t = true ∧ i ∈ ((cfg2.win 3).blk t).view.set := by
  have hi0 : (i 0).val < 100000 := (i 0).isLt
  have hi1 : (i 1).val < 64 := (i 1).isLt
  have hN : cfg2.N = 25 := N_2
  have ht : (i 0).val / 4000 < cfg2.N := by rw [hN]; omega
  refine ⟨⟨(i 0).val / 4000, ht⟩, flush2_3 _, ?_⟩
  rw [mem_blk]
  obtain ⟨-, -, -, -, -, -, e0, e1⟩ := idx ⟨(i 0).val / 4000, ht⟩
  intro a
  match a with
  | ⟨0, _⟩ =>
    show win2_3.index ⟨(i 0).val / 4000, ht⟩ (0 : Fin 2) * 4000 ≤ (i 0).val ∧ (i 0).val < win2_3.index ⟨(i 0).val / 4000, ht⟩ (0 : Fin 2) * 4000 + 4000
    rw [e0]; show (i 0).val / 4000 * 4000 ≤ (i 0).val ∧ (i 0).val < (i 0).val / 4000 * 4000 + 4000; omega
  | ⟨1, _⟩ =>
    show win2_3.index ⟨(i 0).val / 4000, ht⟩ (1 : Fin 2) * 64 ≤ (i 1).val ∧ (i 1).val < win2_3.index ⟨(i 0).val / 4000, ht⟩ (1 : Fin 2) * 64 + 64
    rw [e1]; omega

/-- THE RESULT ARRAY after the call, whatever contents it was entered from. -/
theorem final (c : Dev nD) : (dat2 V c).arrAt 3 cfg2.N = whole (V c main_v42) (V c main_v16) (V c main_v43) :=
  (dat2 V c).arrAt_eq_of_cover 3 (whole (V c main_v42) (V c main_v16) (V c main_v43)) (fun t _ => flushed V c t) cover

end Cert.KernelIdeal.KReg2

end
-- ==== Proof.KValue.lean ====
/-
  The idealized kernel's result, entry by entry.

  The buffer contents at the eight segment boundaries are followed from the launch memory to the result:

  * after the first three stretches the column of normalisers, the features and the first weights stand ready
    (`W3_v16`, `W3_v17`, `W3_v18`), and the edge indices `rowK`, `colK` of the argument;
  * the first call leaves `hs1 r k = d r · Σ_j x r j · w1 j k` (`W4_v19`);
  * the fourth stretch aggregates it over the edges (`V5_v29`) and reshapes the first bias; the second call leaves
    `hs2 r k = Σ_j (d r · max (d r · agg1 r j + b1 j) 0) · w2 j k` (`W6_v32`);
  * the fifth stretch aggregates that (`V7_v42`) and reshapes the second bias; the third call leaves
    `out v k = d v · agg2 v k + b2 k`.

  Put together, entry `(v, k)` of the result is the network with the normalisers applied on the nodes (`Cert.Gcn.kerOut`) of
  the argument arrays, with the edges' sources and arrivals read off the index columns `wrapCol (rowK a1)` and
  `rawCol (colK a1)` and the normaliser `dinvK (colK a1)`.
-/
import proofs.«145440_j34239479284114_2_alg».proof.Proof.Gen.KernelIdeal.Frame
import proofs.«145440_j34239479284114_2_alg».proof.Proof.KHost
import proofs.«145440_j34239479284114_2_alg».proof.Proof.KCarry
import proofs.«145440_j34239479284114_2_alg».proof.Proof.KReg0
import proofs.«145440_j34239479284114_2_alg».proof.Proof.KReg1
import proofs.«145440_j34239479284114_2_alg».proof.Proof.KReg2
import proofs.«145440_j34239479284114_2_alg».proof.Proof.LibKeepdims
import Idealize.ShloMosaic.Lib.ValueLayout

set_option maxRecDepth 16384

noncomputable section

open scoped BigOperators

namespace Cert.KernelIdeal.KValue

open Idealize.ShloMosaic Idealize.ShloMosaic.TcCoe Idealize.ShloMosaic.ValueIdx Idealize.ShloMosaic.StableHlo
open Idealize.SL.Sem
open Cert.KernelIdeal Cert.KernelIdeal.Gen Cert.KernelIdeal.KHost Cert.KernelIdeal.KCarry

variable (m : (ℓ : Loc nD τ sig) → Buf (Elt Ideal) ℓ) (ρ : Dev nD → PrngReg) (c : Dev nD)

/-- The six argument arrays as launched. -/
abbrev A0 := m ((c : Thread nD τ).loc main_arg0)
abbrev A1 := m ((c : Thread nD τ).loc main_arg1)
abbrev A2 := m ((c : Thread nD τ).loc main_arg2)
abbrev A3 := m ((c : Thread nD τ).loc main_arg3)
abbrev A4 := m ((c : Thread nD τ).loc main_arg4)
abbrev A5 := m ((c : Thread nD τ).loc main_arg5)

/-- The normaliser as the column the calls read. -/
abbrev sCol : (⟨S100000x1, .f32⟩ : BufTy).Contents (Elt Ideal) :=
  shapeCast _ (dinvK (colK (A1 m c))) shapeCasts_S100000_S100000x1

/-! ## After the first stretch -/

theorem W1_v3 : W1 m ρ c (Proc.devRef .tc main_v3) = rowK (A1 m c) := ops0_v3 (W0 m ρ c)
theorem W1_v6 : W1 m ρ c (Proc.devRef .tc main_v6) = colK (A1 m c) := ops0_v6 (W0 m ρ c)
theorem W1_v12 : W1 m ρ c (Proc.devRef .tc main_v12) = posK (colK (A1 m c)) := ops0_v12 (W0 m ρ c)
theorem W1_v14 : W1 m ρ c (Proc.devRef .tc main_v14) = powK (colK (A1 m c)) := ops0_v14 (W0 m ρ c)
theorem W1_cst3 : W1 m ρ c (Proc.devRef .tc main_cst_3) = constant (F := Ideal) S_ .f32 0x00000000#32 := ops0_cst3 (W0 m ρ c)
theorem W1_arg0 : W1 m ρ c (Proc.devRef .tc main_arg0) = A0 m c := k0_arg0 (W0 m ρ c)
theorem W1_arg2 : W1 m ρ c (Proc.devRef .tc main_arg2) = A2 m c := k0_arg2 (W0 m ρ c)
theorem W1_arg3 : W1 m ρ c (Proc.devRef .tc main_arg3) = A3 m c := k0_arg3 (W0 m ρ c)
theorem W1_arg4 : W1 m ρ c (Proc.devRef .tc main_arg4) = A4 m c := k0_arg4 (W0 m ρ c)
theorem W1_arg5 : W1 m ρ c (Proc.devRef .tc main_arg5) = A5 m c := k0_arg5 (W0 m ρ c)

/-! ## After the `where` -/

theorem W2_v15 : W2 m ρ c (Proc.devRef .tc main_v15) = dinvK (colK (A1 m c)) := by
  refine (ops01_v15 (W1 m ρ c)).trans ?_
  rw [W1_v12, W1_v14, W1_cst3]
  rfl
theorem W2_v3 : W2 m ρ c (Proc.devRef .tc main_v3) = rowK (A1 m c) := (k01_v3 (W1 m ρ c)).trans (W1_v3 m ρ c)
theorem W2_v6 : W2 m ρ c (Proc.devRef .tc main_v6) = colK (A1 m c) := (k01_v6 (W1 m ρ c)).trans (W1_v6 m ρ c)
theorem W2_arg0 : W2 m ρ c (Proc.devRef .tc main_arg0) = A0 m c := (k01_arg0 (W1 m ρ c)).trans (W1_arg0 m ρ c)
theorem W2_arg2 : W2 m ρ c (Proc.devRef .tc main_arg2) = A2 m c := (k01_arg2 (W1 m ρ c)).trans (W1_arg2 m ρ c)
theorem W2_arg3 : W2 m ρ c (Proc.devRef .tc main_arg3) = A3 m c := (k01_arg3 (W1 m ρ c)).trans (W1_arg3 m ρ c)
theorem W2_arg4 : W2 m ρ c (Proc.devRef .tc main_arg4) = A4 m c := (k01_arg4 (W1 m ρ c)).trans (W1_arg4 m ρ c)
theorem W2_arg5 : W2 m ρ c (Proc.devRef .tc main_arg5) = A5 m c := (k01_arg5 (W1 m ρ c)).trans (W1_arg5 m ρ c)

/-! ## At the first call's entry -/

theorem W3_v16 : W3 m ρ c (Proc.devRef .tc main_v16) = sCol m c := by
  refine (ops02_v16 (W2 m ρ c)).trans ?_
  rw [W2_v15]
theorem W3_v17 : (W3 m ρ c (Proc.devRef .tc main_v17) : S100000x128.Idx → EReal) = A0 m c := by
  refine (ops02_v17 (W2 m ρ c)).trans ?_
  rw [W2_arg0]
theorem W3_v18 : (W3 m ρ c (Proc.devRef .tc main_v18) : S128x128.Idx → EReal) = A2 m c := by
  refine (ops02_v18 (W2 m ρ c)).trans ?_
  rw [W2_arg2]
theorem W3_v3 : W3 m ρ c (Proc.devRef .tc main_v3) = rowK (A1 m c) := (k02_v3 (W2 m ρ c)).trans (W2_v3 m ρ c)
theorem W3_v6 : W3 m ρ c (Proc.devRef .tc main_v6) = colK (A1 m c) := (k02_v6 (W2 m ρ c)).trans (W2_v6 m ρ c)
theorem W3_arg3 : W3 m ρ c (Proc.devRef .tc main_arg3) = A3 m c := (k02_arg3 (W2 m ρ c)).trans (W2_arg3 m ρ c)
theorem W3_arg4 : W3 m ρ c (Proc.devRef .tc main_arg4) = A4 m c := (k02_arg4 (W2 m ρ c)).trans (W2_arg4 m ρ c)
theorem W3_arg5 : W3 m ρ c (Proc.devRef .tc main_arg5) = A5 m c := (k02_arg5 (W2 m ρ c)).trans (W2_arg5 m ρ c)

/-! ## At the first call's exit -/

theorem W4_v19 : W4 m ρ c (Proc.devRef .tc main_v19)
    = KReg0.whole (A0 m c) (A2 m c) (sCol m c) := by
  refine (W4_arr m ρ c 3).trans ?_
  refine (KReg0.final (V3 m ρ) c).trans ?_
  show KReg0.whole (W3 m ρ c (Proc.devRef .tc main_v17)) (W3 m ρ c (Proc.devRef .tc main_v18)) (W3 m ρ c (Proc.devRef .tc main_v16)) = _
  rw [W3_v17, W3_v18, W3_v16]
theorem W4_v3 : W4 m ρ c (Proc.devRef .tc main_v3) = rowK (A1 m c) := (W4_of_ne m ρ c main_v3 (by decide)).trans (W3_v3 m ρ c)
theorem W4_v6 : W4 m ρ c (Proc.devRef .tc main_v6) = colK (A1 m c) := (W4_of_ne m ρ c main_v6 (by decide)).trans (W3_v6 m ρ c)
/-- The column of normalisers is one of the call's input arrays: an input array is left as it was entered. -/
theorem W4_v16 : W4 m ρ c (Proc.devRef .tc main_v16) = sCol m c :=
  (W4_arr m ρ c 2).trans (((dat0 (V3 m ρ) c).arrAt_in 2 rfl cfg0.N).trans ((A_eq0 (V3 m ρ) c 2).trans (W3_v16 m ρ c)))
theorem W4_arg3 : W4 m ρ c (Proc.devRef .tc main_arg3) = A3 m c := (W4_of_ne m ρ c main_arg3 (by decide)).trans (W3_arg3 m ρ c)
theorem W4_arg4 : W4 m ρ c (Proc.devRef .tc main_arg4) = A4 m c := (W4_of_ne m ρ c main_arg4 (by decide)).trans (W3_arg4 m ρ c)
theorem W4_arg5 : W4 m ρ c (Proc.devRef .tc main_arg5) = A5 m c := (W4_of_ne m ρ c main_arg5 (by decide)).trans (W3_arg5 m ρ c)

/-! ## At the second call's entry -/

theorem W5_v29 : W5 m ρ c (Proc.devRef .tc main_v29)
    = aggr128 (rowK (A1 m c)) (colK (A1 m c)) (W4 m ρ c (Proc.devRef .tc main_v19)) := by
  refine (ops1_v29 (W4 m ρ c)).trans ?_
  rw [W4_v3, W4_v6]
theorem W5_v30 : W5 m ρ c (Proc.devRef .tc main_v30) = shapeCast _ (A3 m c) shapeCasts_S128_S1x128 := by
  refine (ops1_v30 (W4 m ρ c)).trans ?_
  rw [W4_arg3]
theorem W5_v31 : (W5 m ρ c (Proc.devRef .tc main_v31) : S128x64.Idx → EReal) = A4 m c := by
  refine (ops1_v31 (W4 m ρ c)).trans ?_
  rw [W4_arg4]
theorem W5_v16 : W5 m ρ c (Proc.devRef .tc main_v16) = sCol m c := (k1_v16 (W4 m ρ c)).trans (W4_v16 m ρ c)
theorem W5_v3 : W5 m ρ c (Proc.devRef .tc main_v3) = rowK (A1 m c) := (k1_v3 (W4 m ρ c)).trans (W4_v3 m ρ c)
theorem W5_v6 : W5 m ρ c (Proc.devRef .tc main_v6) = colK (A1 m c) := (k1_v6 (W4 m ρ c)).trans (W4_v6 m ρ c)
theorem W5_arg5 : W5 m ρ c (Proc.devRef .tc main_arg5) = A5 m c := (k1_arg5 (W4 m ρ c)).trans (W4_arg5 m ρ c)

/-! ## At the second call's exit -/

theorem W6_v32 : W6 m ρ c (Proc.devRef .tc main_v32)
    = KReg1.whole (W5 m ρ c (Proc.devRef .tc main_v29)) (sCol m c) (shapeCast _ (A3 m c) shapeCasts_S128_S1x128)
        (A4 m c) := by
  refine (W6_arr m ρ c 4).trans ?_
  refine (KReg1.final (V5 m ρ) c).trans ?_
  show KReg1.whole (W5 m ρ c (Proc.devRef .tc main_v29)) (W5 m ρ c (Proc.devRef .tc main_v16))
    (W5 m ρ c (Proc.devRef .tc main_v30)) (W5 m ρ c (Proc.devRef .tc main_v31)) = _
  rw [W5_v16, W5_v30, W5_v31]
theorem W6_v3 : W6 m ρ c (Proc.devRef .tc main_v3) = rowK (A1 m c) := (W6_of_ne m ρ c main_v3 (by decide)).trans (W5_v3 m ρ c)
theorem W6_v6 : W6 m ρ c (Proc.devRef .tc main_v6) = colK (A1 m c) := (W6_of_ne m ρ c main_v6 (by decide)).trans (W5_v6 m ρ c)
/-- Again an input array of the call. -/
theorem W6_v16 : W6 m ρ c (Proc.devRef .tc main_v16) = sCol m c :=
  (W6_arr m ρ c 1).trans (((dat1 (V5 m ρ) c).arrAt_in 1 rfl cfg1.N).trans ((A_eq1 (V5 m ρ) c 1).trans (W5_v16 m ρ c)))
theorem W6_arg5 : W6 m ρ c (Proc.devRef .tc main_arg5) = A5 m c := (W6_of_ne m ρ c main_arg5 (by decide)).trans (W5_arg5 m ρ c)

/-! ## At the third call's entry and exit -/

theorem W7_v42 : W7 m ρ c (Proc.devRef .tc main_v42)
    = aggr64 (rowK (A1 m c)) (colK (A1 m c)) (W6 m ρ c (Proc.devRef .tc main_v32)) := by
  refine (ops2_v42 (W6 m ρ c)).trans ?_
  rw [W6_v3, W6_v6]
theorem W7_v43 : W7 m ρ c (Proc.devRef .tc main_v43) = shapeCast _ (A5 m c) shapeCasts_S64_S1x64 := by
  refine (ops2_v43 (W6 m ρ c)).trans ?_
  rw [W6_arg5]
theorem W7_v16 : W7 m ρ c (Proc.devRef .tc main_v16) = sCol m c := (k2_v16 (W6 m ρ c)).trans (W6_v16 m ρ c)

theorem W8_v44 : W8 m ρ c (Proc.devRef .tc main_v44)
    = KReg2.whole (W7 m ρ c (Proc.devRef .tc main_v42)) (sCol m c) (shapeCast _ (A5 m c) shapeCasts_S64_S1x64) := by
  refine (W8_arr m ρ c 3).trans ?_
  refine (KReg2.final (V7 m ρ) c).trans ?_
  show KReg2.whole (W7 m ρ c (Proc.devRef .tc main_v42)) (W7 m ρ c (Proc.devRef .tc main_v16)) (W7 m ρ c (Proc.devRef .tc main_v43)) = _
  rw [W7_v16, W7_v43]

/-! ## The network -/

/-- The edge data and the arrays of the argument, as the specification takes them. -/
abbrev dN : Fin 100000 → EReal := fun n => dinvK (colK (A1 m c)) (ix1 n)
abbrev srcN : Fin 1700000 → Fin 100000 := Cert.Gcn.srcOf (wrapCol (rowK (A1 m c)))
abbrev intoN : Fin 100000 → Finset (Fin 1700000) := Cert.Gcn.intoOf (rawCol (colK (A1 m c)))
abbrev XN : Fin 100000 → Fin 128 → EReal := fun r j => A0 m c (ix2 r j)
abbrev W1N : Fin 128 → Fin 128 → EReal := fun j k => A2 m c (ix2 j k)
abbrev b1N : Fin 128 → EReal := fun j => A3 m c (ix1 j)
abbrev W2N : Fin 128 → Fin 64 → EReal := fun j k => A4 m c (ix2 j k)
abbrev b2N : Fin 64 → EReal := fun k => A5 m c (ix1 k)

/-- The column of normalisers at row `r` is the normaliser of node `r`. -/
theorem sCol_apply (r : Fin 100000) : sCol m c (ix2 r (0 : Fin 1)) = dN m c r :=
  Cert.Keepdims.shapeCast_a_a1_apply _ shapeCasts_S100000_S100000x1 r 0

/-- What the first call leaves: the scaled first transform. -/
theorem hs1_apply (r : Fin 100000) (k : Fin 128) :
    W4 m ρ c (Proc.devRef .tc main_v19) (ix2 r k) = dN m c r * Cert.Gcn.dense (XN m c) (W1N m c) r k := by
  rw [W4_v19, KReg0.whole_apply]
  unfold KReg0.entry
  rw [sCol_apply]
  rfl

/-- The first aggregation. -/
theorem agg1_apply (v : Fin 100000) (j : Fin 128) :
    W5 m ρ c (Proc.devRef .tc main_v29) (ix2 v j)
      = Cert.Gcn.agg (srcN m c) (intoN m c) (fun r k => dN m c r * Cert.Gcn.dense (XN m c) (W1N m c) r k) v j := by
  rw [W5_v29, aggr128_apply]
  have h : (fun (r : Fin 100000) (k : Fin 128) => W4 m ρ c (Proc.devRef .tc main_v19) (ix2 r k))
      = fun r k => dN m c r * Cert.Gcn.dense (XN m c) (W1N m c) r k := funext fun r => funext fun k => hs1_apply m ρ c r k
  rw [h]

/-- What the second call leaves: the hidden features, scaled, through the second transform. -/
theorem hs2_apply (r : Fin 100000) (k : Fin 64) :
    (W6 m ρ c (Proc.devRef .tc main_v32) (ix2 r k) : EReal)
      = ∑ j : Fin 128, (dN m c r * Cert.Gcn.kerHidden (dN m c) (srcN m c) (intoN m c) (XN m c) (W1N m c) (b1N m c) r j) * W2N m c j k := by
  rw [W6_v32, KReg1.whole_apply]
  unfold KReg1.entry Cert.Gcn.kerHidden
  show @Eq EReal _ _
  refine Finset.sum_congr rfl fun j _ => ?_
  rw [sCol_apply, agg1_apply, shapeCast_a_1a_apply (A3 m c) shapeCasts_S128_S1x128 (0 : Fin 1) j]

/-- THE RESULT, entry by entry. -/
theorem result_apply (v : Fin 100000) (k : Fin 64) :
    W8 m ρ c (Proc.devRef .tc main_v44) (ix2 v k)
      = Cert.Gcn.kerOut (dN m c) (srcN m c) (intoN m c) (XN m c) (W1N m c) (b1N m c) (W2N m c) (b2N m c) v k := by
  rw [W8_v44, KReg2.whole_apply]
  unfold KReg2.entry Cert.Gcn.kerOut
  rw [sCol_apply, W7_v42, aggr64_apply, shapeCast_a_1a_apply (A5 m c) shapeCasts_S64_S1x64 (0 : Fin 1) k]
  have h : (fun (r : Fin 100000) (q : Fin 64) => W6 m ρ c (Proc.devRef .tc main_v32) (ix2 r q))
      = fun r q => ∑ j : Fin 128, (dN m c r * Cert.Gcn.kerHidden (dN m c) (srcN m c) (intoN m c) (XN m c) (W1N m c) (b1N m c) r j) * W2N m c j q :=
    funext fun r => funext fun q => hs2_apply m ρ c r q
  rw [h]

end Cert.KernelIdeal.KValue

end
-- ==== Proof.RefValue.lean ====
/-
  The reference side of the two-layer graph convolution, read at a node and an output feature.

  The reference program builds, from the edge list, a source column and a target column of 1,700,000 entries (the
  1,600,000 given edges followed by one self-loop per node), counts the edges arriving at each node, and takes the
  normaliser d v = (count v)^(-1/2) where the count is positive and 0 elsewhere. Each layer then
    * gathers the normaliser at the (wrapped) source and at the (wrapped) target of every edge and multiplies the two,
    * gathers the features of every edge's source, multiplies each row by the edge's weight,
    * adds the rows into a zero matrix at the (unwrapped) target of every edge, and adds the bias.
  Between the layers stand max(., 0) and the second weight matrix. Read index by index this is the function
  Cert.Gcn.refOut of GcnSpec at the normaliser, the source and target columns and the arriving-edge sets the program itself
  computes (ref_value). The program computes the normaliser and the index columns once per layer; the second copies
  are the same terms of the edge list as the first, so the statement mentions the first copies only.
  An edge that the scatter delivers to node v has target index exactly v, which is not negative, so wrapping keeps it and
  the gather reads the normaliser at v itself (ref_tgt).
-/
import proofs.«145440_j34239479284114_2_alg».proof.Proof.RefReadP
import proofs.«145440_j34239479284114_2_alg».proof.Proof.GcnSpec
import proofs.«145440_j34239479284114_2_alg».proof.Proof.LibRowGatherScatter

noncomputable section

open scoped BigOperators

namespace Cert.RefSide

open Cert.ReferenceIdeal Cert.ReferenceIdeal.Gen Cert.ReferenceIdeal.Read Idealize.ShloMosaic Idealize.ShloMosaic.ValueIdx
  Idealize.ShloMosaic.RowOps Idealize.ShloMosaic.StableHlo

/-! ## The program's gathers and scatter-adds read at coordinates -/

/-- A gather of a per-node vector at an index column reads, for edge e, the vector at the node the column names. -/
theorem gatherNode_apply {α : Type} (x : S100000.Idx → α) (idx : IVec S1700000x1 32) (e : Fin 1700000) :
    Host.gather gather_S100000_S1700000x1_S1700000_n_0_n_n_0_1_1 x idx (ix1 e) = x (ix1 (Cert.Gcn.srcOf idx e)) := by
  unfold gather_S100000_S1700000x1_S1700000_n_0_n_n_0_1_1 Cert.Gcn.srcOf
  exact gather_vec_apply (N := 100000) (E := 1700000) (by decide) _ x idx e

/-- A gather of the rows of a 128-column matrix: row e of the result is the row of the node the column names. -/
theorem gatherRows128_apply {α : Type} (x : S100000x128.Idx → α) (idx : IVec S1700000x1 32) (e : Fin 1700000)
    (c : Fin 128) :
    Host.gather gather_S100000x128_S1700000x1_S1700000x128_1_0_n_n_0_1_1128 x idx (ix2 e c)
      = x (ix2 (Cert.Gcn.srcOf idx e) c) := by
  unfold gather_S100000x128_S1700000x1_S1700000x128_1_0_n_n_0_1_1128 Cert.Gcn.srcOf
  exact gather_rows_apply (N := 100000) (E := 1700000) (C := 128) (by decide) _ x idx e c

/-- The same for a 64-column matrix. -/
theorem gatherRows64_apply {α : Type} (x : S100000x64.Idx → α) (idx : IVec S1700000x1 32) (e : Fin 1700000)
    (c : Fin 64) :
    Host.gather gather_S100000x64_S1700000x1_S1700000x64_1_0_n_n_0_1_164 x idx (ix2 e c)
      = x (ix2 (Cert.Gcn.srcOf idx e) c) := by
  unfold gather_S100000x64_S1700000x1_S1700000x64_1_0_n_n_0_1_164 Cert.Gcn.srcOf
  exact gather_rows_apply (N := 100000) (E := 1700000) (C := 64) (by decide) _ x idx e c

/-- A scatter-add of edge rows into a 128-column matrix: element (v, c) gains column c of every row delivered to v. -/
theorem scatterRows128_apply (x : FVec Ideal S100000x128 .f32) (idx : IVec S1700000x1 32)
    (upd : FVec Ideal S1700000x128 .f32) (v : Fin 100000) (c : Fin 128) :
    Host.scatterAdd (F := Ideal) scatter_S100000x128_S1700000x1_S1700000x128_1_0_0_1 x idx upd (ix2 v c)
      = x (ix2 v c) + ∑ e ∈ Cert.Gcn.intoOf idx v, upd (ix2 e c) := by
  unfold scatter_S100000x128_S1700000x1_S1700000x128_1_0_0_1 Cert.Gcn.intoOf
  exact scatterAdd_rows_apply (N := 100000) (E := 1700000) (C := 128) _ x idx upd v c

/-- The same for a 64-column matrix. -/
theorem scatterRows64_apply (x : FVec Ideal S100000x64 .f32) (idx : IVec S1700000x1 32)
    (upd : FVec Ideal S1700000x64 .f32) (v : Fin 100000) (c : Fin 64) :
    Host.scatterAdd (F := Ideal) scatter_S100000x64_S1700000x1_S1700000x64_1_0_0_1 x idx upd (ix2 v c)
      = x (ix2 v c) + ∑ e ∈ Cert.Gcn.intoOf idx v, upd (ix2 e c) := by
  unfold scatter_S100000x64_S1700000x1_S1700000x64_1_0_0_1 Cert.Gcn.intoOf
  exact scatterAdd_rows_apply (N := 100000) (E := 1700000) (C := 64) _ x idx upd v c

/-! ## The specification's definitions, opened once -/

/-- One layer with the normalisers on the edges, written out. -/
theorem refLayer_eq {N E : Type} {C : ℕ} (d : N → EReal) (src tgt : E → N) (into : N → Finset E) (H : N → Fin C → EReal)
    (b : Fin C → EReal) (v : N) (k : Fin C) :
    Cert.Gcn.refLayer d src tgt into H b v k = (∑ e ∈ into v, (d (src e) * d (tgt e)) * H (src e) k) + b k := rfl

/-- A product with a weight matrix, written out. -/
theorem dense_eq {N : Type} {K C : ℕ} (X : N → Fin K → EReal) (W : Fin K → Fin C → EReal) (r : N) (k : Fin C) :
    Cert.Gcn.dense X W r k = ∑ j : Fin K, X r j * W j k := rfl

section
variable (x0 : (⟨S100000x128, .f32⟩ : BufTy).Contents (Elt Ideal)) (x1 : (⟨S2x1600000, .i32⟩ : BufTy).Contents (Elt Ideal))
  (x2 : (⟨S128x128, .f32⟩ : BufTy).Contents (Elt Ideal)) (x3 : (⟨S128, .f32⟩ : BufTy).Contents (Elt Ideal))
  (x4 : (⟨S128x64, .f32⟩ : BufTy).Contents (Elt Ideal)) (x5 : (⟨S64, .f32⟩ : BufTy).Contents (Elt Ideal))

/-! ## The stages the program computes more than once

Each of these is the same term of the edge list as its first copy: the same operations applied to the same
operands, under different buffer names. -/

theorem v22_eq : val_main_v22 (F := Ideal) x1 = val_main_v38 (F := Ideal) x1 := rfl
theorem v64_eq : val_main_v64 (F := Ideal) x1 = val_main_v38 (F := Ideal) x1 := rfl
theorem v80_eq : val_main_v80 (F := Ideal) x1 = val_main_v38 (F := Ideal) x1 := rfl
theorem v71_eq : val_main_v71 (F := Ideal) x1 = val_main_v29 (F := Ideal) x1 := rfl
theorem v85_eq : val_main_v85 (F := Ideal) x1 = val_main_v43 (F := Ideal) x1 := rfl
theorem v58_eq : val_main_v58 (F := Ideal) x1 = val_main_v16 (F := Ideal) x1 := rfl

/-! ## The weight of an edge -/

/-- First layer: the weight of edge e is the normaliser at its source times the normaliser at its target. -/
theorem v31_at (e : Fin 1700000) :
    val_main_v31 (F := Ideal) x1 (ix1 e)
      = val_main_v16 (F := Ideal) x1 (ix1 (Cert.Gcn.srcOf (val_main_v38 (F := Ideal) x1) e))
        * val_main_v16 (F := Ideal) x1 (ix1 (Cert.Gcn.srcOf (val_main_v29 (F := Ideal) x1) e)) := by
  rw [val_main_v31_apply, Ideal.mulf_def]
  unfold val_main_v23 val_main_v30
  rw [gatherNode_apply, gatherNode_apply, v22_eq]

/-- Second layer: the same weight, from the recomputed normaliser and columns. -/
theorem v73_at (e : Fin 1700000) :
    val_main_v73 (F := Ideal) x1 (ix1 e)
      = val_main_v16 (F := Ideal) x1 (ix1 (Cert.Gcn.srcOf (val_main_v38 (F := Ideal) x1) e))
        * val_main_v16 (F := Ideal) x1 (ix1 (Cert.Gcn.srcOf (val_main_v29 (F := Ideal) x1) e)) := by
  rw [val_main_v73_apply, Ideal.mulf_def]
  unfold val_main_v65 val_main_v72
  rw [gatherNode_apply, gatherNode_apply, v64_eq, v71_eq, v58_eq]

/-! ## The first layer -/

/-- The features times the first weight matrix. -/
theorem v7_at (r : Fin 100000) (c : Fin 128) :
    val_main_v7 (F := Ideal) x0 x2 (ix2 r c)
      = Cert.Gcn.dense (fun r j => x0 (ix2 r j)) (fun j c => x2 (ix2 j c)) r c := by
  have hl : ∀ k : Fin 128, lidx_main_v7 (ix2 r c) k = ix2 r k := fun k =>
    funext fun a => Fin.ext (by match a with | ⟨0, _⟩ => rfl | ⟨1, _⟩ => rfl)
  have hr : ∀ k : Fin 128, ridx_main_v7 (ix2 r c) k = ix2 k c := fun k =>
    funext fun a => Fin.ext (by match a with | ⟨0, _⟩ => rfl | ⟨1, _⟩ => rfl)
  rw [val_main_v7_apply, dense_eq]
  exact Finset.sum_congr rfl fun k _ => by rw [hl, hr]

/-- What edge e brings to column c: its weight times its source's transformed features. -/
theorem v41_at (e : Fin 1700000) (c : Fin 128) :
    val_main_v41 (F := Ideal) x0 x1 x2 (ix2 e c)
      = (val_main_v16 (F := Ideal) x1 (ix1 (Cert.Gcn.srcOf (val_main_v38 (F := Ideal) x1) e))
          * val_main_v16 (F := Ideal) x1 (ix1 (Cert.Gcn.srcOf (val_main_v29 (F := Ideal) x1) e)))
        * val_main_v7 (F := Ideal) x0 x2 (ix2 (Cert.Gcn.srcOf (val_main_v38 (F := Ideal) x1) e) c) := by
  have hi : idx_main_v32 (idx_main_v40 (ix2 e c)) = ix1 e :=
    funext fun a => Fin.ext (by match a with | ⟨0, _⟩ => rfl)
  rw [val_main_v41_apply, Ideal.mulf_def, val_main_v40_apply, val_main_v32_apply, hi, v31_at]
  unfold val_main_v39
  rw [gatherRows128_apply]

/-- The aggregated sum at node v: what the arriving edges bring, added to zero. -/
theorem v44_at (v : Fin 100000) (c : Fin 128) :
    val_main_v44 (F := Ideal) x0 x1 x2 (ix2 v c)
      = ∑ e ∈ Cert.Gcn.intoOf (val_main_v43 (F := Ideal) x1) v, val_main_v41 (F := Ideal) x0 x1 x2 (ix2 e c) := by
  unfold val_main_v44
  rw [scatterRows128_apply, val_main_v42_apply, val_main_cst_9_apply, Ideal.ofBits_def, Ideal.ofBits_zero_f32, zero_add]

/-- The hidden features: the first layer, then max(., 0). -/
theorem v48_at (r : Fin 100000) (j : Fin 128) :
    val_main_v48 (F := Ideal) x0 x1 x2 x3 (ix2 r j)
      = max (Cert.Gcn.refLayer (fun n => val_main_v16 (F := Ideal) x1 (ix1 n))
          (Cert.Gcn.srcOf (val_main_v38 (F := Ideal) x1)) (Cert.Gcn.srcOf (val_main_v29 (F := Ideal) x1))
          (Cert.Gcn.intoOf (val_main_v43 (F := Ideal) x1))
          (Cert.Gcn.dense (fun r j => x0 (ix2 r j)) (fun j c => x2 (ix2 j c))) (fun j => x3 (ix1 j)) r j) 0 := by
  have hb : idx_main_v45 (idx_main_v46 (ix2 r j)) = ix1 j :=
    funext fun a => Fin.ext (by match a with | ⟨0, _⟩ => rfl)
  rw [val_main_v48_apply, Ideal.maximumf_def, val_main_v47_apply, Ideal.addf_def, val_main_v46_apply, val_main_v45_apply, hb,
    val_main_call1_v0_apply, val_main_call1_cst_apply, Ideal.ofBits_def, Ideal.ofBits_zero_f32, v44_at]
  rw [refLayer_eq]
  refine congrArg (fun t => max (t + x3 (ix1 j)) 0) (Finset.sum_congr rfl fun e _ => ?_)
  rw [v41_at, v7_at]

/-! ## The second layer -/

/-- The hidden features times the second weight matrix. -/
theorem v49_at (r : Fin 100000) (k : Fin 64) :
    val_main_v49 (F := Ideal) x0 x1 x2 x3 x4 (ix2 r k)
      = Cert.Gcn.dense (fun r j => max (Cert.Gcn.refLayer (fun n => val_main_v16 (F := Ideal) x1 (ix1 n))
          (Cert.Gcn.srcOf (val_main_v38 (F := Ideal) x1)) (Cert.Gcn.srcOf (val_main_v29 (F := Ideal) x1))
          (Cert.Gcn.intoOf (val_main_v43 (F := Ideal) x1))
          (Cert.Gcn.dense (fun r j => x0 (ix2 r j)) (fun j c => x2 (ix2 j c))) (fun j => x3 (ix1 j)) r j) 0)
          (fun j c => x4 (ix2 j c)) r k := by
  have hl : ∀ j : Fin 128, lidx_main_v49 (ix2 r k) j = ix2 r j := fun j =>
    funext fun a => Fin.ext (by match a with | ⟨0, _⟩ => rfl | ⟨1, _⟩ => rfl)
  have hr : ∀ j : Fin 128, ridx_main_v49 (ix2 r k) j = ix2 j k := fun j =>
    funext fun a => Fin.ext (by match a with | ⟨0, _⟩ => rfl | ⟨1, _⟩ => rfl)
  rw [val_main_v49_apply, dense_eq]
  exact Finset.sum_congr rfl fun j _ => by rw [hl, hr, v48_at]

/-- What edge e brings to output column k. -/
theorem v83_at (e : Fin 1700000) (k : Fin 64) :
    val_main_v83 (F := Ideal) x0 x1 x2 x3 x4 (ix2 e k)
      = (val_main_v16 (F := Ideal) x1 (ix1 (Cert.Gcn.srcOf (val_main_v38 (F := Ideal) x1) e))
          * val_main_v16 (F := Ideal) x1 (ix1 (Cert.Gcn.srcOf (val_main_v29 (F := Ideal) x1) e)))
        * val_main_v49 (F := Ideal) x0 x1 x2 x3 x4 (ix2 (Cert.Gcn.srcOf (val_main_v38 (F := Ideal) x1) e) k) := by
  have hi : idx_main_v74 (idx_main_v82 (ix2 e k)) = ix1 e :=
    funext fun a => Fin.ext (by match a with | ⟨0, _⟩ => rfl)
  rw [val_main_v83_apply, Ideal.mulf_def, val_main_v82_apply, val_main_v74_apply, hi, v73_at]
  unfold val_main_v81
  rw [gatherRows64_apply, v80_eq]

/-- The aggregated sum of the second layer at node v. -/
theorem v86_at (v : Fin 100000) (k : Fin 64) :
    val_main_v86 (F := Ideal) x0 x1 x2 x3 x4 (ix2 v k)
      = ∑ e ∈ Cert.Gcn.intoOf (val_main_v43 (F := Ideal) x1) v, val_main_v83 (F := Ideal) x0 x1 x2 x3 x4 (ix2 e k) := by
  unfold val_main_v86
  rw [scatterRows64_apply, val_main_v84_apply, val_main_cst_21_apply, Ideal.ofBits_def, Ideal.ofBits_zero_f32, zero_add, v85_eq]

/-! ## The result -/

/-- THE REFERENCE'S RESULT at node v and output feature k is the two-layer network of GcnSpec with the normalisers applied on
    the edges, at the normaliser, the columns and the arriving-edge sets the program computes from the edge list. -/
theorem ref_value (v : Fin 100000) (k : Fin 64) :
    val_main_v89 (F := Ideal) x0 x1 x2 x3 x4 x5 (ix2 v k)
      = Cert.Gcn.refOut (fun n => val_main_v16 (F := Ideal) x1 (ix1 n))
          (Cert.Gcn.srcOf (val_main_v38 (F := Ideal) x1))
          (Cert.Gcn.srcOf (val_main_v29 (F := Ideal) x1))
          (Cert.Gcn.intoOf (val_main_v43 (F := Ideal) x1))
          (fun r j => x0 (ix2 r j)) (fun j c => x2 (ix2 j c)) (fun j => x3 (ix1 j)) (fun j c => x4 (ix2 j c))
          (fun c => x5 (ix1 c)) v k := by
  have hb : idx_main_v87 (idx_main_v88 (ix2 v k)) = ix1 k :=
    funext fun a => Fin.ext (by match a with | ⟨0, _⟩ => rfl)
  rw [val_main_v89_apply, Ideal.addf_def, val_main_v88_apply, val_main_v87_apply, hb, v86_at]
  unfold Cert.Gcn.refOut
  rw [refLayer_eq]
  refine congrArg (fun t => t + x5 (ix1 k)) (Finset.sum_congr rfl fun e _ => ?_)
  rw [v83_at, v49_at]

/-! ## An arriving edge carries the normaliser of the node it arrives at -/

/-- An index that is not negative is kept by the wrap (w + 100000 if w is negative, else w). -/
theorem wrap_keep (w : BitVec 32) (h : 0 ≤ w.toInt) :
    Scalar.select (IntOp.cmpi .slt w 0#32) (IntOp.addi w 100000#32) w = w := by
  have hs : w.slt 0#32 = false := by
    unfold BitVec.slt
    rw [BitVec.toInt_zero]
    exact decide_eq_false (by omega)
  unfold Scalar.select IntOp.cmpi
  simp only [hs]
  rfl

/-- An edge the scatter delivers to v has a target index that IS v: it is not negative, so the wrap keeps it, and it is a
    node, so the gather does not clamp it. -/
theorem ref_tgt (v : Fin 100000) (e : Fin 1700000)
    (he : e ∈ Cert.Gcn.intoOf (val_main_v43 (F := Ideal) x1) v) :
    Cert.Gcn.srcOf (val_main_v29 (F := Ideal) x1) e = v := by
  have hl : lands (val_main_v43 (F := Ideal) x1) e v := (Finset.mem_filter.mp he).2
  have hi : idx_main_v29 (ix2 e (0 : Fin 1)) = idx_main_v43 (ix2 e (0 : Fin 1)) := rfl
  have h0 : (0 : Int) ≤ (val_main_v43 (F := Ideal) x1 (ix2 e (0 : Fin 1))).toInt := by
    unfold lands at hl
    rw [hl]
    exact Int.natCast_nonneg _
  unfold Cert.Gcn.srcOf
  refine pickRow_of_lands_of_eq (by decide) (val_main_v43 (F := Ideal) x1) (val_main_v29 (F := Ideal) x1) e v hl ?_
  rw [val_main_v43_apply] at h0 ⊢
  rw [val_main_v29_apply, hi, val_main_v28_apply, val_main_v25_apply, val_main_v27_apply, val_main_v24_apply, val_main_c_5_apply,
    val_main_v26_apply, val_main_c_6_apply]
  exact wrap_keep _ h0

end

end Cert.RefSide

end
-- ==== Proof.Bridge.lean ====
/-
  The two programs read the graph the same way.

  Both programs build the edges' row and column indices (the edge list with one self-loop per node appended), the in-degree
  and the normaliser `deg ^ -1/2` (zero where the degree is zero) from the edge list by the same operations with the same
  literals. So the kernel's normaliser, the column of wrapped row indices its gathers read and the column of column indices
  its scatter-adds use ARE the reference's corresponding stages of the same edge list: the terms differ only in the
  proofs of their side conditions.
-/
import proofs.«145440_j34239479284114_2_alg».proof.Proof.KHost
import proofs.«145440_j34239479284114_2_alg».proof.Proof.RefReadP

noncomputable section

namespace Cert.Bridge

open Idealize.ShloMosaic Cert.KernelIdeal.KHost

/-- The normaliser. -/
theorem dinv_same (a1 : (⟨Cert.KernelIdeal.S2x1600000, .i32⟩ : BufTy).Contents (Elt Ideal)) :
    dinvK (colK a1) = Cert.ReferenceIdeal.Read.val_main_v16 (F := Ideal) a1 := rfl

/-- The column of row indices the gathers read. -/
theorem src_same (a1 : (⟨Cert.KernelIdeal.S2x1600000, .i32⟩ : BufTy).Contents (Elt Ideal)) :
    wrapCol (rowK a1) = Cert.ReferenceIdeal.Read.val_main_v38 (F := Ideal) a1 := rfl

/-- The column of column indices the scatter-adds use. -/
theorem into_same (a1 : (⟨Cert.KernelIdeal.S2x1600000, .i32⟩ : BufTy).Contents (Elt Ideal)) :
    rawCol (colK a1) = Cert.ReferenceIdeal.Read.val_main_v43 (F := Ideal) a1 := rfl

end Cert.Bridge

end
-- ==== Proof.LibGcnLayer.lean ====
/-
  The algebra of one graph-convolution layer on the extended reals.

  A layer sends node features `X` to `out v c = ∑_{e into v} (∑_k X (g e) k · W k c) · (s e · t)`: every edge `e` into node `v`
  carries the transformed features of its source `g e`, scaled by the source's normaliser `s e` and the target's `t`.
  Because the transform is linear, the same number is obtained by aggregating first and transforming afterwards:
  `∑_k ((∑_{e into v} X (g e) k · s e) · t) · W k c`. On the extended reals this exchange of two finite sums and the
  distribution of the products over them hold when every entry is a real number (at an infinity `(a + b) · c` need not be
  `a · c + b · c`), so the law is stated for entries that are real, and proved by moving the whole expression into `ℝ`.
-/
import Idealize.ShloMosaic.PureOps.Ideal

open scoped BigOperators

namespace Cert.GcnLaw

/-- An extended real that is a real number. -/
def IsReal (x : EReal) : Prop := ∃ r : ℝ, x = (r : EReal)

theorem IsReal.coe (r : ℝ) : IsReal (r : EReal) := ⟨r, rfl⟩
theorem IsReal.zero : IsReal (0 : EReal) := ⟨0, rfl⟩
theorem IsReal.add {x y : EReal} (hx : IsReal x) (hy : IsReal y) : IsReal (x + y) := by
  obtain ⟨a, rfl⟩ := hx; obtain ⟨b, rfl⟩ := hy; exact ⟨a + b, (EReal.coe_add a b).symm⟩
theorem IsReal.mul {x y : EReal} (hx : IsReal x) (hy : IsReal y) : IsReal (x * y) := by
  obtain ⟨a, rfl⟩ := hx; obtain ⟨b, rfl⟩ := hy; exact ⟨a * b, (EReal.coe_mul a b).symm⟩
theorem IsReal.max {x y : EReal} (hx : IsReal x) (hy : IsReal y) : IsReal (max x y) := by
  rcases max_choice x y with h | h <;> rw [h] <;> assumption
theorem IsReal.min {x y : EReal} (hx : IsReal x) (hy : IsReal y) : IsReal (min x y) := by
  rcases min_choice x y with h | h <;> rw [h] <;> assumption

/-- The coercion of a finite sum of reals is the sum of the coercions. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite sum of reals is real. -/
theorem IsReal.sum {ι : Type*} (s : Finset ι) (f : ι → EReal) (h : ∀ i ∈ s, IsReal (f i)) : IsReal (∑ i ∈ s, f i) := by
  classical
  induction s using Finset.induction_on with
  | empty => simpa using IsReal.zero
  | insert a s ha ih =>
    rw [Finset.sum_insert ha]
    exact (h a (Finset.mem_insert_self a s)).add (ih fun i hi => h i (Finset.mem_insert_of_mem hi))

/-- THE LAYER LAW: aggregating the scaled source features over the edges into a node and then applying the linear
    transform equals transforming each source's features and then aggregating with the edge weights `s e · t`,
    when all entries are real. `S` is the set of edges into the node, `a e k` the source features of edge `e`,
    `s e` the source's normaliser, `t` the node's own, `W k` one column of the transform. -/
theorem layer_law {E K : Type*} [Fintype K] (S : Finset E) (a : E → K → EReal) (s : E → EReal) (t : EReal)
    (W : K → EReal) (ha : ∀ e k, IsReal (a e k)) (hs : ∀ e, IsReal (s e)) (ht : IsReal t) (hW : ∀ k, IsReal (W k)) :
    ∑ k, ((∑ e ∈ S, a e k * s e) * t) * W k = ∑ e ∈ S, (∑ k, a e k * W k) * (s e * t) := by
  choose a' ha' using ha
  choose s' hs' using hs
  obtain ⟨t', rfl⟩ := ht
  choose W' hW' using hW
  have hL : ∑ k, ((∑ e ∈ S, a e k * s e) * (t' : EReal)) * W k
      = ((∑ k, ((∑ e ∈ S, a' e k * s' e) * t') * W' k : ℝ) : EReal) := by
    rw [coe_sum]
    refine Finset.sum_congr rfl fun k _ => ?_
    rw [EReal.coe_mul, EReal.coe_mul, coe_sum, hW' k]
    congr 2
    refine Finset.sum_congr rfl fun e _ => ?_
    rw [EReal.coe_mul, ha' e k, hs' e]
  have hR : ∑ e ∈ S, (∑ k, a e k * W k) * (s e * (t' : EReal))
      = ((∑ e ∈ S, (∑ k, a' e k * W' k) * (s' e * t') : ℝ) : EReal) := by
    rw [coe_sum]
    refine Finset.sum_congr rfl fun e _ => ?_
    rw [EReal.coe_mul, EReal.coe_mul, coe_sum, hs' e]
    congr 1
    refine Finset.sum_congr rfl fun k _ => ?_
    rw [EReal.coe_mul, ha' e k, hW' k]
  rw [hL, hR]
  congr 1
  simp only [Finset.sum_mul, Finset.mul_sum]
  rw [Finset.sum_comm]
  refine Finset.sum_congr rfl fun e _ => Finset.sum_congr rfl fun k _ => ?_
  ring

end Cert.GcnLaw
-- ==== Proof.GcnLaw.lean ====
/-
  The two arrangements of the two-layer graph convolution agree when every entry is a real number.

  One layer, normalisers on the edges: `out v k = Σ_{e ∈ into v} (d (src e) · d (tgt e)) · H (src e) k + b k`.
  One layer, normalisers on the nodes: `out v k = d v · Σ_{e ∈ into v} d (src e) · H (src e) k + b k`.
  Every edge `e ∈ into v` has `tgt e = v`, so the edge weight is `d (src e) · d v`; the factor `d v` does not depend on
  the edge and comes out of the finite sum. On the extended reals a factor distributes over a sum when all terms are real
  (at an infinity `c · (a + b)` need not be `c · a + c · b`), which is why every entry is assumed real.
  In the second layer the node arrangement also applies the source normaliser before the weight matrix,
  `Σ_j (d r · T r j) · W j k = d r · Σ_j T r j · W j k`: the same distribution, over the feature index.
  The hidden features are real because sums, products and maxima of reals are real, so the one-layer law applies twice.
-/
import proofs.«145440_j34239479284114_2_alg».proof.Proof.GcnSpec
import proofs.«145440_j34239479284114_2_alg».proof.Proof.LibGcnLayer

open scoped BigOperators

namespace Cert.Gcn

open Cert.GcnLaw

/-- A real factor distributes over a finite sum of reals. -/
theorem mul_sum_real {ι : Type*} (c : EReal) (s : Finset ι) (f : ι → EReal) (hc : IsReal c)
    (hf : ∀ i ∈ s, IsReal (f i)) : c * ∑ i ∈ s, f i = ∑ i ∈ s, c * f i := by
  obtain ⟨c', rfl⟩ := hc
  classical
  induction s using Finset.induction_on with
  | empty => simp
  | insert a s ha ih =>
    obtain ⟨x, hx⟩ := hf a (Finset.mem_insert_self a s)
    obtain ⟨y, hy⟩ := IsReal.sum s f fun i hi => hf i (Finset.mem_insert_of_mem hi)
    rw [Finset.sum_insert ha, Finset.sum_insert ha, ← ih fun i hi => hf i (Finset.mem_insert_of_mem hi), hx, hy,
      ← EReal.coe_add, ← EReal.coe_mul, ← EReal.coe_mul, ← EReal.coe_mul, ← EReal.coe_add, mul_add]

section Abstract
variable {N E : Type} {K C : ℕ}

/-- Real features times a real weight matrix are real. -/
theorem dense_real (X : N → Fin K → EReal) (W : Fin K → Fin C → EReal) (hX : ∀ r j, IsReal (X r j))
    (hW : ∀ j k, IsReal (W j k)) (r : N) (k : Fin C) : IsReal (dense X W r k) :=
  IsReal.sum _ _ fun j _ => (hX r j).mul (hW j k)

/-- A layer with real normalisers, features and bias has real values. -/
theorem refLayer_real (d : N → EReal) (src tgt : E → N) (into : N → Finset E) (H : N → Fin C → EReal)
    (b : Fin C → EReal) (hd : ∀ v, IsReal (d v)) (hH : ∀ r k, IsReal (H r k)) (hb : ∀ k, IsReal (b k))
    (v : N) (k : Fin C) : IsReal (refLayer d src tgt into H b v k) :=
  (IsReal.sum _ _ fun e _ => ((hd (src e)).mul (hd (tgt e))).mul (hH (src e) k)).add (hb k)

/-- THE ONE-LAYER LAW: scaling the features at the source nodes, summing over the arriving edges and scaling the sum at the
    arriving node equals weighting every arriving edge by both normalisers. -/
theorem layer_eq (d : N → EReal) (src tgt : E → N) (into : N → Finset E) (H : N → Fin C → EReal) (b : Fin C → EReal)
    (htgt : ∀ v, ∀ e ∈ into v, tgt e = v) (hd : ∀ v, IsReal (d v)) (hH : ∀ r k, IsReal (H r k)) (v : N) (k : Fin C) :
    d v * agg src into (fun r k => d r * H r k) v k + b k = refLayer d src tgt into H b v k := by
  simp only [agg, refLayer]
  rw [mul_sum_real (d v) (into v) _ (hd v) fun e _ => (hd (src e)).mul (hH (src e) k)]
  congr 1
  refine Finset.sum_congr rfl fun e he => ?_
  rw [htgt v e he, ← mul_assoc, mul_comm (d v)]

/-- A real scalar moves across a row-times-column product. -/
theorem dense_scale (c : EReal) (T W : Fin K → EReal) (hc : IsReal c) (hT : ∀ j, IsReal (T j))
    (hW : ∀ j, IsReal (W j)) : ∑ j, (c * T j) * W j = c * ∑ j, T j * W j := by
  rw [mul_sum_real c _ _ hc fun j _ => (hT j).mul (hW j)]
  exact Finset.sum_congr rfl fun j _ => mul_assoc _ _ _

end Abstract

section Network
variable {N E : Type}

/-- The hidden features of the node arrangement are those of the edge arrangement. -/
theorem kerHidden_eq (d : N → EReal) (src tgt : E → N) (into : N → Finset E) (X : N → Fin 128 → EReal)
    (W1 : Fin 128 → Fin 128 → EReal) (b1 : Fin 128 → EReal) (htgt : ∀ v, ∀ e ∈ into v, tgt e = v)
    (hd : ∀ v, IsReal (d v)) (hX : ∀ r j, IsReal (X r j)) (hW1 : ∀ j k, IsReal (W1 j k)) :
    kerHidden d src into X W1 b1 = fun r j => max (refLayer d src tgt into (dense X W1) b1 r j) 0 := by
  funext r j
  unfold kerHidden
  rw [layer_eq d src tgt into (dense X W1) b1 htgt hd (dense_real X W1 hX hW1) r j]

/-- The hidden features are real. -/
theorem kerHidden_real (d : N → EReal) (src tgt : E → N) (into : N → Finset E) (X : N → Fin 128 → EReal)
    (W1 : Fin 128 → Fin 128 → EReal) (b1 : Fin 128 → EReal) (htgt : ∀ v, ∀ e ∈ into v, tgt e = v)
    (hd : ∀ v, IsReal (d v)) (hX : ∀ r j, IsReal (X r j)) (hW1 : ∀ j k, IsReal (W1 j k)) (hb1 : ∀ j, IsReal (b1 j))
    (r : N) (j : Fin 128) : IsReal (kerHidden d src into X W1 b1 r j) := by
  rw [kerHidden_eq d src tgt into X W1 b1 htgt hd hX hW1]
  exact (refLayer_real d src tgt into (dense X W1) b1 hd (dense_real X W1 hX hW1) hb1 r j).max IsReal.zero

/-- THE LAW: the network with the normalisers applied on the nodes equals the network with them applied on the edges. -/
theorem ker_eq_ref (d : N → EReal) (src tgt : E → N) (into : N → Finset E)
    (X : N → Fin 128 → EReal) (W1 : Fin 128 → Fin 128 → EReal) (b1 : Fin 128 → EReal)
    (W2 : Fin 128 → Fin 64 → EReal) (b2 : Fin 64 → EReal)
    (htgt : ∀ v, ∀ e ∈ into v, tgt e = v)
    (hd : ∀ v, Cert.GcnLaw.IsReal (d v)) (hX : ∀ r j, Cert.GcnLaw.IsReal (X r j))
    (hW1 : ∀ j k, Cert.GcnLaw.IsReal (W1 j k)) (hb1 : ∀ j, Cert.GcnLaw.IsReal (b1 j))
    (hW2 : ∀ j k, Cert.GcnLaw.IsReal (W2 j k)) (hb2 : ∀ k, Cert.GcnLaw.IsReal (b2 k)) (v : N) (k : Fin 64) :
    kerOut d src into X W1 b1 W2 b2 v k = refOut d src tgt into X W1 b1 W2 b2 v k := by
  have hH : ∀ r j, IsReal (kerHidden d src into X W1 b1 r j) :=
    kerHidden_real d src tgt into X W1 b1 htgt hd hX hW1 hb1
  have h2 : (fun (r : N) (k : Fin 64) => ∑ j : Fin 128, (d r * kerHidden d src into X W1 b1 r j) * W2 j k)
      = fun r k => d r * dense (kerHidden d src into X W1 b1) W2 r k := by
    funext r k
    exact dense_scale (d r) (fun j => kerHidden d src into X W1 b1 r j) (fun j => W2 j k) (hd r) (hH r)
      (fun j => hW2 j k)
  unfold kerOut refOut
  rw [h2, layer_eq d src tgt into (dense (kerHidden d src into X W1 b1) W2) b2 htgt hd
    (dense_real _ W2 hH hW2) v k, kerHidden_eq d src tgt into X W1 b1 htgt hd hX hW1]

end Network

end Cert.Gcn
-- ==== Proof.Finite.lean ====
/-
  The facts that make the law's hypotheses true: the degree normaliser is a real number at every node, and under the
  precondition every entry of the float arguments is a real number.

  The normaliser. The degree of node `n` is a scatter-add of ones into zeros: `0` plus a finite sum of ones over the
  edges that land on `n`, a real number. The normaliser is `deg ^ (−1/2)` where `deg > 0` and `0` elsewhere; a real
  to a real power is a real (the real power function is total), and `0` is real, so both branches of the selection
  are real and no positivity of the degree is needed. The literals `1` and `−1/2` are patterns whose exponent field is
  not all ones, which denote real numbers.

  The inputs. The precondition is a conjunction of five tests `all (|a| < +∞)`, one per float argument. A conjunction of
  bits that is 1 has every conjunct 1; an `all` that is 1 has every element 1; and `|x| < +∞`, that is
  `max x (−x) < ⊤`, rules out both infinities of the extended reals, which leaves the reals.
-/
import proofs.«145440_j34239479284114_2_alg».proof.Defs
import proofs.«145440_j34239479284114_2_alg».proof.Proof.RefReadP
import proofs.«145440_j34239479284114_2_alg».proof.Proof.LibGcnLayer
import proofs.«145440_j34239479284114_2_alg».proof.Proof.LibRowGatherScatter
import Idealize.ShloMosaic.Lib.ReduceAll
import Idealize.ShloMosaic.Lib.ValueIdx
import Idealize.ShloMosaic.PureOps.Ideal.Laws

noncomputable section

open scoped BigOperators

namespace Cert.Finite

open Idealize.ShloMosaic Idealize.ShloMosaic.ValueIdx Idealize.ShloMosaic.RowOps Idealize.SL.Sem Cert.GcnLaw

/-! ## Literals -/

/-- A pattern whose exponent field is not all ones denotes a real number (zero, a subnormal or a normal). -/
theorem ieee_real (e m : Nat) {w : Nat} (b : BitVec w) (h : (b.extractLsb' m e).toNat ≠ 2 ^ e - 1) :
    IsReal (Ideal.ieee e m b) := by
  unfold Ideal.ieee
  dsimp only
  rw [if_neg h]
  split <;> exact ⟨_, rfl⟩

/-- The pattern of `1` is real. -/
theorem one_real : IsReal (Ideal.ofBits .f32 0x3F800000#32) := by
  show IsReal (Ideal.ieee 8 23 (0x3F800000#32 : BitVec 32))
  exact ieee_real 8 23 _ (by decide)

/-- The pattern of `−1/2` is real. -/
theorem neg_half_real : IsReal (Ideal.ofBits .f32 0xBF000000#32) := by
  show IsReal (Ideal.ieee 8 23 (0xBF000000#32 : BitVec 32))
  exact ieee_real 8 23 _ (by decide)

/-- The pattern with all exponent bits set and no fraction bit is `+∞`. -/
theorem inf_val : Ideal.ofBits .f32 0x7F800000#32 = ⊤ := by
  simp [Ideal.ofBits, Ideal.ieee]

/-- `|x| < +∞` leaves only the reals: `max x (−x) < ⊤` excludes `⊤` directly and `⊥` through `−⊥ = ⊤`. -/
theorem real_of_abs_lt_inf (x : Ideal .f32)
    (h : FloatOps.cmpf (F := Ideal) .olt (FloatOps.hostAbsf x) (FloatOps.ofBits (F := Ideal) .f32 0x7F800000#32) = 1#1) :
    IsReal x := by
  rw [Ideal.ofBits_def, inf_val] at h
  change Ideal.cmp .olt (max x (-x)) ⊤ = 1#1 at h
  have h' : max x (-x) < ⊤ := by
    by_contra hn
    have h0 : Ideal.cmp .olt (max x (-x)) ⊤ = 0#1 := by simp [Ideal.cmp, hn]
    rw [h0] at h
    exact absurd h (by decide)
  induction x using EReal.rec with
  | bot => simp at h'
  | coe r => exact ⟨r, rfl⟩
  | top => simp at h'

/-! ## The degree normaliser of the reference is real -/

section Normaliser

open Cert.ReferenceIdeal Cert.ReferenceIdeal.Gen Cert.ReferenceIdeal.Read

/-- The degree of node `n`: zero plus one for every edge whose arriving index is `n`. -/
theorem deg_apply (x1 : (⟨S2x1600000, .i32⟩ : BufTy).Contents (Elt Ideal)) (n : Fin 100000) :
    val_main_v11 (F := Ideal) x1 (ix1 n) = val_main_v9 (F := Ideal) (ix1 n)
      + ∑ e ∈ Finset.univ.filter (fun e : Fin 1700000 => lands (val_main_v10 (F := Ideal) x1) e n),
          val_main_v8 (F := Ideal) (ix1 e) := by
  unfold val_main_v11 scatter_S100000_S1700000x1_S1700000_n_0_0_1
  exact scatterAdd_vec_apply _ _ _ _ n

/-- The degree is a real number: a finite sum of ones. -/
theorem deg_real (x1 : (⟨S2x1600000, .i32⟩ : BufTy).Contents (Elt Ideal)) (n : Fin 100000) :
    IsReal (val_main_v11 (F := Ideal) x1 (ix1 n)) := by
  rw [deg_apply]
  refine IsReal.add ?_ (IsReal.sum _ _ fun e _ => ?_)
  · rw [val_main_v9_apply, val_main_cst_0_apply, Ideal.ofBits_def, Ideal.ofBits_zero_f32]
    exact IsReal.zero
  · rw [val_main_v8_apply, val_main_cst_apply, Ideal.ofBits_def]
    exact one_real

/-- THE NORMALISER IS REAL at every node: `deg ^ (−1/2)` is a real to a real power, and the other branch is `0`. -/
theorem dinv_real (x1 : (⟨S2x1600000, .i32⟩ : BufTy).Contents (Elt Ideal)) (n : Fin 100000) :
    Cert.GcnLaw.IsReal (Cert.ReferenceIdeal.Read.val_main_v16 (F := Ideal) x1 (ix1 n)) := by
  rw [val_main_v16_apply]
  unfold Scalar.select
  split
  · rw [val_main_v15_apply, Ideal.hostPowf_def, val_main_v14_apply, val_main_cst_2_apply, Ideal.ofBits_def]
    obtain ⟨a, ha⟩ := deg_real x1 n
    obtain ⟨b, hb⟩ := neg_half_real
    rw [ha, hb]
    exact ⟨Real.rpow a b, rfl⟩
  · rw [val_main_call0_v1_apply, val_main_call0_v0_apply, val_main_cst_3_apply, Ideal.ofBits_def, Ideal.ofBits_zero_f32]
    exact IsReal.zero

end Normaliser

/-! ## From the precondition to real entries -/

section Inputs

open Cert.Pre_finite_inputs

/-- The scalar shape has one index. -/
instance subsingleton_scalar_idx : Subsingleton S_.Idx := ⟨fun a b => funext fun d => d.elim0⟩

/-- One test `all (|a| < +∞)` that came out 1 makes every entry of `a` real. -/
theorem all_real {s : Shape} {axes : List (Fin s.rank)} (a : FVec Ideal s .f32)
    (bc : S_.BroadcastsInDim s (![] : Fin 0 → Fin s.rank)) (red : s.ReducesTo axes S_) (hS : 0 < S_.numel)
    (h : Host.reduce IntOp.andi
        (cmpf .olt (Host.absf a) (broadcastInDim s ![] bc (constant (F := Ideal) S_ .f32 0x7F800000#32)))
        (constantI S_ 1 1#1) red hS ValueIdx.ix0 = 1#1) (i : s.Idx) : IsReal (a i) :=
  real_of_abs_lt_inf (a i) (Host.reduce_andi_all _ _ red hS ValueIdx.ix0 h i)

/-- The conjunction of the five tests is 1: every entry of every float argument is real. -/
theorem fn_real [Cert.Pre_finite_inputs.Facts] (a0 : FVec Ideal S100000x128 .f32) (a1 : IVec S2x1600000 32)
    (a2 : FVec Ideal S128x128 .f32) (a3 : FVec Ideal S128 .f32) (a4 : FVec Ideal S128x64 .f32)
    (a5 : FVec Ideal S64 .f32) (h : fn (F := Ideal) a0 a1 a2 a3 a4 a5 = fun _ => 1#1) :
    (∀ i, IsReal (a0 i)) ∧ (∀ i, IsReal (a2 i)) ∧ (∀ i, IsReal (a3 i)) ∧ (∀ i, IsReal (a4 i))
      ∧ (∀ i, IsReal (a5 i)) := by
  have h0 := congrFun h ValueIdx.ix0
  dsimp only [fn, fn_part1, andi] at h0
  rw [IntOp.andi_eq_one, IntOp.andi_eq_one, IntOp.andi_eq_one, IntOp.andi_eq_one] at h0
  obtain ⟨⟨⟨⟨h3, h7⟩, h12⟩, h17⟩, h22⟩ := h0
  exact ⟨all_real a0 _ _ _ h3, all_real a2 _ _ _ h7, all_real a3 _ _ _ h12, all_real a4 _ _ _ h17,
    all_real a5 _ _ _ h22⟩

end Inputs

/-- UNDER THE PRECONDITION every entry of the five float arguments is real, on every device. -/
theorem inputs_real [hPre_finite_inputs : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, IsReal (m ((c.tc : Thread Cert.KernelIdeal.nD Cert.KernelIdeal.τ).loc Cert.KernelIdeal.main_arg0) i))
    ∧ (∀ i, IsReal (m ((c.tc : Thread Cert.KernelIdeal.nD Cert.KernelIdeal.τ).loc Cert.KernelIdeal.main_arg2) i))
    ∧ (∀ i, IsReal (m ((c.tc : Thread Cert.KernelIdeal.nD Cert.KernelIdeal.τ).loc Cert.KernelIdeal.main_arg3) i))
    ∧ (∀ i, IsReal (m ((c.tc : Thread Cert.KernelIdeal.nD Cert.KernelIdeal.τ).loc Cert.KernelIdeal.main_arg4) i))
    ∧ (∀ i, IsReal (m ((c.tc : Thread Cert.KernelIdeal.nD Cert.KernelIdeal.τ).loc Cert.KernelIdeal.main_arg5) i)) :=
  fn_real _ _ _ _ _ _ (h c)

end Cert.Finite

end
-- ==== Proof.lean ====
/-
  A two-layer graph convolution over 100000 nodes and 1700000 edges (1600000 given, one self-loop per node), features
  128 → 128 → 64, computed by three pipelined TPU calls among host gathers and scatter-adds, against its jnp reference.

  With `d v = deg v ^ -1/2` (zero where the in-degree is zero), one layer of the reference sends node features `H` to
  `Σ_{e arriving at v} (d (src e) · d (tgt e)) · H (src e) k + b k`: the two normalisers are multiplied on every edge. The
  kernel scales `H` by `d` at every node before the edges read it, sums the gathered rows, and scales the sum by `d v`
  afterwards; in the second layer the scaling at the source is moved in front of the second weight matrix. An edge that
  arrives at `v` carries `d v`, so the two differ only by the distribution of a factor over a finite sum and by moving a
  factor across a matrix product. On the extended reals these laws hold when every entry is a real number: the inputs are
  finite by the precondition, and the normaliser is a real power of a finite sum of ones.

  The pieces: the kernel's run with its result named (KRun), the three calls read whole (KReg0, KReg1, KReg2) over their
  bodies' arithmetic (KPay), the host stretches (KHost, KCarry) and their composition (KValue); the reference read at an
  entry (RefValue, over the reference's run and its stages); that both read the graph the same way (Bridge); the law
  (GcnLaw over GcnSpec) and the realness of its entries (Finite).
-/
import proofs.«145440_j34239479284114_2_alg».proof.Defs
import proofs.«145440_j34239479284114_2_alg».proof.Proof.Gen.Kernel
import proofs.«145440_j34239479284114_2_alg».proof.Proof.Gen.Kernel.Skeleton
import proofs.«145440_j34239479284114_2_alg».proof.Proof.Gen.Kernel.Launch
import proofs.«145440_j34239479284114_2_alg».proof.Proof.Gen.Kernel.Points
import proofs.«145440_j34239479284114_2_alg».proof.Proof.Gen.Kernel.Frame
import proofs.«145440_j34239479284114_2_alg».proof.Proof.Gen.KernelIdeal
import proofs.«145440_j34239479284114_2_alg».proof.Proof.Gen.KernelIdeal.Skeleton
import proofs.«145440_j34239479284114_2_alg».proof.Proof.Gen.KernelIdeal.Launch
import proofs.«145440_j34239479284114_2_alg».proof.Proof.Gen.KernelIdeal.Points
import proofs.«145440_j34239479284114_2_alg».proof.Proof.Gen.KernelIdeal.Frame
import proofs.«145440_j34239479284114_2_alg».proof.Proof.Gen.ReferenceIdeal
import proofs.«145440_j34239479284114_2_alg».proof.Proof.Gen.Pre_finite_inputs
import proofs.«145440_j34239479284114_2_alg».proof.Proof.RefRunP
import proofs.«145440_j34239479284114_2_alg».proof.Proof.RefReadP
import proofs.«145440_j34239479284114_2_alg».proof.Proof.KRun
import proofs.«145440_j34239479284114_2_alg».proof.Proof.KValue
import proofs.«145440_j34239479284114_2_alg».proof.Proof.RefValue
import proofs.«145440_j34239479284114_2_alg».proof.Proof.Bridge
import proofs.«145440_j34239479284114_2_alg».proof.Proof.GcnLaw
import proofs.«145440_j34239479284114_2_alg».proof.Proof.Finite
import Idealize.ShloMosaic.Adequacy
import Idealize.ShloMosaic.Init

noncomputable section

namespace Cert.Proof

open Idealize.ShloMosaic Idealize.ShloMosaic.TcCoe Idealize.ShloMosaic.ValueIdx Idealize.SL.Sem

/-- The kernel as printed runs and leaves its arguments alone: the generated frame. -/
theorem frame_p : Cert.frame_Kernel := fun m ρ _ => Cert.Kernel.Gen.frame m ρ

/-- So does its idealization. -/
theorem frame_pi : Cert.frame_KernelIdeal := fun m ρ _ => Cert.KernelIdeal.Gen.frame m ρ

/-- The reference is host operations only: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments, the reference's result array is the kernel's, entry by entry: both are
    the network of the same graph data and the same arrays, in the two arrangements the law identifies. -/
theorem result_same (m : (ℓ : Loc Cert.KernelIdeal.nD Cert.KernelIdeal.τ Cert.KernelIdeal.sig) → Buf (Elt Ideal) ℓ)
    (ρ : Dev Cert.KernelIdeal.nD → PrngReg)
    (m' : (ℓ : Loc Cert.ReferenceIdeal.nD Cert.ReferenceIdeal.τ Cert.ReferenceIdeal.sig) → Buf (Elt Ideal) ℓ)
    (hpre : Cert.Pre_KernelIdeal m) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) :
    Cert.ReferenceIdeal.Value.res_main_v89 m' c
      = Cert.KernelIdeal.Gen.W8 m ρ c (Proc.devRef .tc Cert.KernelIdeal.main_v44) := by
  rw [Cert.ReferenceIdeal.Read.val_main_v89_eq, h0, h1, h2, h3, h4, h5]
  funext i
  obtain ⟨v, k, rfl⟩ : ∃ (v : Fin 100000) (k : Fin 64), i = ix2 v k := ⟨i 0, i 1, eq_ix2 i⟩
  obtain ⟨r0, r2, r3, r4, r5⟩ := Cert.Finite.inputs_real m hpre c
  refine (Cert.RefSide.ref_value _ _ _ _ _ _ v k).trans ?_
  refine Eq.trans ?_ (Cert.KernelIdeal.KValue.result_apply m ρ c v k).symm
  unfold Cert.KernelIdeal.KValue.dN Cert.KernelIdeal.KValue.srcN Cert.KernelIdeal.KValue.intoN
  rw [Cert.Bridge.dinv_same, Cert.Bridge.src_same, Cert.Bridge.into_same]
  exact (Cert.Gcn.ker_eq_ref _ _ _ _ _ _ _ _ _
    (fun w e he => Cert.RefSide.ref_tgt _ w e he)
    (fun n => Cert.Finite.dinv_real _ n)
    (fun r j => r0 _) (fun j q => r2 _) (fun j => r3 _) (fun j q => r4 _) (fun q => r5 _) v k).symm

/-- The two idealized programs, run from memories agreeing on the arguments, end with the same result. -/
theorem algebraic : Cert.algebraic_KernelIdeal_ReferenceIdeal := by
  intro m ρ m' ρ' hpre hagree
  refine ⟨fun c => Cert.KernelIdeal.Gen.W8 m ρ c (Proc.devRef .tc Cert.KernelIdeal.main_v44),
    Cert.KernelIdeal.KRun.run_named m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5⟩ := hagree c
  exact result_same m ρ m' hpre c h0 h1 h2 h3 h4 h5

theorem claim : Cert.Claim := ⟨Cert.Kernel.Gen.facts, Cert.KernelIdeal.Gen.facts, Cert.ReferenceIdeal.Gen.facts, Cert.Pre_finite_inputs.Gen.facts,
  frame_p, frame_pi, frame_ri, preserves, algebraic⟩

end Cert.Proof

end
